-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x80 : Shape := ⟨2, ![262144, 80]⟩
abbrev S_ : Shape := ⟨0, ![]⟩

class Facts : Prop where
  bcast_S_S262144x80 : S_.BroadcastsInDim S262144x80 (![] : Fin 0 → Fin S262144x80.rank)
  reducesTo_S262144x80_S_d0_1 : S262144x80.ReducesTo [0, 1] S_
  h_S_ : 0 < S_.numel

variable [Facts]

def fn {F : FTy → Type} [FloatOps F] (main_arg0 : FVec F S262144x80 .f32) (main_arg1 : FVec F S262144x80 .f32) (main_arg2 : FVec F S262144x80 .f32) : IVec S_ 1 :=
  let main_v0 : FVec F S262144x80 .f32 := Host.absf main_arg0
  let main_cst : FVec F S_ .f32 := constant S_ .f32 0x7F800000#32
  let main_v1 : FVec F S262144x80 .f32 := broadcastInDim S262144x80 ![] bcast_S_S262144x80 main_cst
  let main_v2 : IVec S262144x80 1 := cmpf .olt main_v0 main_v1
  let main_c : IVec S_ 1 := constantI S_ 1 1#1
  let main_v3 : IVec S_ 1 := (fun x v => Host.reduce IntOp.andi x v reducesTo_S262144x80_S_d0_1 h_S_) main_v2 main_c
  let main_v4 : FVec F S262144x80 .f32 := Host.absf main_arg1
  let main_cst_0 : FVec F S_ .f32 := constant S_ .f32 0x7F800000#32
  let main_v5 : FVec F S262144x80 .f32 := broadcastInDim S262144x80 ![] bcast_S_S262144x80 main_cst_0
  let main_v6 : IVec S262144x80 1 := cmpf .olt main_v4 main_v5
  let main_c_1 : IVec S_ 1 := constantI S_ 1 1#1
  let main_v7 : IVec S_ 1 := (fun x v => Host.reduce IntOp.andi x v reducesTo_S262144x80_S_d0_1 h_S_) main_v6 main_c_1
  let main_v8 : IVec S_ 1 := andi main_v3 main_v7
  let main_v9 : FVec F S262144x80 .f32 := Host.absf main_arg2
  let main_cst_2 : FVec F S_ .f32 := constant S_ .f32 0x7F800000#32
  let main_v10 : FVec F S262144x80 .f32 := broadcastInDim S262144x80 ![] bcast_S_S262144x80 main_cst_2
  let main_v11 : IVec S262144x80 1 := cmpf .olt main_v9 main_v10
  let main_c_3 : IVec S_ 1 := constantI S_ 1 1#1
  let main_v12 : IVec S_ 1 := (fun x v => Host.reduce IntOp.andi x v reducesTo_S262144x80_S_d0_1 h_S_) main_v11 main_c_3
  let main_v13 : IVec S_ 1 := andi main_v8 main_v12
  main_v13
-- ==== Kernel.lean ====
abbrev S262144x80 : Shape := ⟨2, ![262144, 80]⟩
abbrev S163840x128 : Shape := ⟨2, ![163840, 128]⟩
abbrev S40x8x10 : Shape := ⟨3, ![40, 8, 10]⟩
abbrev S4096x128 : Shape := ⟨2, ![4096, 128]⟩
abbrev S1x8x10 : Shape := ⟨3, ![1, 8, 10]⟩
abbrev S1x4096x128 : Shape := ⟨3, ![1, 4096, 128]⟩
abbrev S1 : Shape := ⟨1, ![1]⟩
abbrev S1x1x1 : Shape := ⟨3, ![1, 1, 1]⟩
abbrev S10 : Shape := ⟨1, ![10]⟩
abbrev S1x10 : Shape := ⟨2, ![1, 10]⟩
abbrev S8x10 : Shape := ⟨2, ![8, 10]⟩
abbrev S40x1x10 : Shape := ⟨3, ![40, 1, 10]⟩
abbrev S40x10 : Shape := ⟨2, ![40, 10]⟩
abbrev S_ : Shape := ⟨0, ![]⟩

abbrev nBuf : Space → Nat
  | .hbm => 49
  | .vmem => 10
  | .smem => 0
  | _ => 0

abbrev bufTy : (tb : Table) → Fin (tcTables nBuf tb) → BufTy
  | .hbm, ⟨0, _⟩ => ⟨S262144x80, .f32⟩
  | .hbm, ⟨1, _⟩ => ⟨S262144x80, .f32⟩
  | .hbm, ⟨2, _⟩ => ⟨S262144x80, .f32⟩
  | .hbm, ⟨3, _⟩ => ⟨S163840x128, .f32⟩
  | .hbm, ⟨4, _⟩ => ⟨S163840x128, .f32⟩
  | .hbm, ⟨5, _⟩ => ⟨S163840x128, .f32⟩
  | .hbm, ⟨6, _⟩ => ⟨S40x8x10, .f32⟩
  | .hbm, ⟨7, _⟩ => ⟨S40x8x10, .f32⟩
  | .hbm, ⟨8, _⟩ => ⟨S40x1x10, .f32⟩
  | .hbm, ⟨9, _⟩ => ⟨S40x10, .f32⟩
  | .hbm, ⟨10, _⟩ => ⟨S_, .f32⟩
  | .hbm, ⟨11, _⟩ => ⟨S10, .f32⟩
  | .hbm, ⟨12, _⟩ => ⟨S40x1x10, .f32⟩
  | .hbm, ⟨13, _⟩ => ⟨S40x10, .f32⟩
  | .hbm, ⟨14, _⟩ => ⟨S_, .f32⟩
  | .hbm, ⟨15, _⟩ => ⟨S10, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10, .f32⟩
  | .hbm, ⟨22, _⟩ => ⟨S10, .i1⟩
  | .hbm, ⟨23, _⟩ => ⟨S10, .i32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S_, .f32⟩
  | .hbm, ⟨28, _⟩ => ⟨S10, .f32⟩
  | .hbm, ⟨29, _⟩ => ⟨S10, .i1⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x8x10, .f32⟩
  | .local _ .vmem, ⟨7, _⟩ => ⟨S1x8x10, .f32⟩
  | .local _ .vmem, ⟨8, _⟩ => ⟨S1x8x10, .f32⟩
  | .local _ .vmem, ⟨9, _⟩ => ⟨S1x8x10, .f32⟩
  | _, _ => ⟨S262144x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144x80_S163840x128 : S262144x80.ShapeCasts S163840x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S1_S1_S1_S1_S10_d0 : Shape.Concatenates [S1, S1, S1, S1, S1, S1, S1, S1, S1, S1] S10 0
  shapeCasts_S10_S1x10 : S10.ShapeCasts S1x10
  shapeCasts_S1x10_S1x10 : S1x10.ShapeCasts S1x10
  broadcasts_S1x10_S8x10 : S1x10.Broadcasts S8x10
  inb_S1x8x10_S1x8x10_0_0_0 : ∀ a, (![0, 0, 0] : Fin 3 → Nat) a + S1x8x10.size a ≤ S1x8x10.size a
  h_S1x8x10 : 0 < S1x8x10.numel
  shapeCasts_S1x8x10_S8x10 : S1x8x10.ShapeCasts S8x10
  shapeCasts_S8x10_S1x8x10 : S8x10.ShapeCasts S1x8x10
  slices_S40x8x10_S40x1x10_0_0_0 : S40x8x10.Slices ![0, 0, 0] S40x1x10
  shapeCasts_S40x1x10_S40x10 : S40x1x10.ShapeCasts S40x10
  reducesTo_S40x10_S10_d0 : S40x10.ReducesTo [0] S10
  h_S_ : 0 < S_.numel
  reducesTo_S10_S_d0 : S10.ReducesTo [0] S_
  bcast_S_S10 : S_.BroadcastsInDim S10 (![] : Fin 0 → Fin S10.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S163840x128.size a
  hwx0_0 : ∀ i : grid0.Coords, EltTy.bits .f32 = 32 ∨ (Rect.block (s := S163840x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S163840x128.size a
  hwx0_1 : ∀ i : grid0.Coords, EltTy.bits .f32 = 32 ∨ (Rect.block (s := S163840x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S163840x128.size a
  hwx0_2 : ∀ i : grid0.Coords, EltTy.bits .f32 = 32 ∨ (Rect.block (s := S163840x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x10.size a ≤ S40x8x10.size a
  hwx0_3 : ∀ i : grid0.Coords, EltTy.bits .f32 = 32 ∨ (Rect.block (s := S40x8x10) S1x8x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x10.size a ≤ S40x8x10.size a
  hwx0_4 : ∀ i : grid0.Coords, EltTy.bits .f32 = 32 ∨ (Rect.block (s := S40x8x10) S1x8x10.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x8x10.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x8x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x80 : Shape := ⟨2, ![262144, 80]⟩
abbrev S_ : Shape := ⟨0, ![]⟩
abbrev S20971520 : Shape := ⟨1, ![20971520]⟩
abbrev S10 : Shape := ⟨1, ![10]⟩
abbrev S20971520x1 : Shape := ⟨2, ![20971520, 1]⟩
abbrev S262144x80x1 : Shape := ⟨3, ![262144, 80, 1]⟩

abbrev nBuf : Space → Nat
  | .hbm => 96
  | .vmem => 0
  | .smem => 0
  | _ => 0

abbrev bufTy : (tb : Table) → Fin (tcTables nBuf tb) → BufTy
  | .hbm, ⟨0, _⟩ => ⟨S262144x80, .f32⟩
  | .hbm, ⟨1, _⟩ => ⟨S262144x80, .f32⟩
  | .hbm, ⟨2, _⟩ => ⟨S262144x80, .f32⟩
  | .hbm, ⟨3, _⟩ => ⟨S_, .f32⟩
  | .hbm, ⟨4, _⟩ => ⟨S262144x80, .f32⟩
  | .hbm, ⟨5, _⟩ => ⟨S262144x80, .i1⟩
  | .hbm, ⟨6, _⟩ => ⟨S262144x80, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S262144x80, .f32⟩
  | .hbm, ⟨12, _⟩ => ⟨S262144x80, .f32⟩
  | .hbm, ⟨13, _⟩ => ⟨S_, .f32⟩
  | .hbm, ⟨14, _⟩ => ⟨S262144x80, .f32⟩
  | .hbm, ⟨15, _⟩ => ⟨S262144x80, .f32⟩
  | .hbm, ⟨16, _⟩ => ⟨S_, .f32⟩
  | .hbm, ⟨17, _⟩ => ⟨S262144x80, .f32⟩
  | .hbm, ⟨18, _⟩ => ⟨S262144x80, .f32⟩
  | .hbm, ⟨19, _⟩ => ⟨S262144x80, .f32⟩
  | .hbm, ⟨20, _⟩ => ⟨S262144x80, .f32⟩
  | .hbm, ⟨21, _⟩ => ⟨S_, .f32⟩
  | .hbm, ⟨22, _⟩ => ⟨S262144x80, .f32⟩
  | .hbm, ⟨23, _⟩ => ⟨S262144x80, .f32⟩
  | .hbm, ⟨24, _⟩ => ⟨S262144x80, .f32⟩
  | .hbm, ⟨25, _⟩ => ⟨S262144x80, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S262144x80, .i32⟩
  | .hbm, ⟨30, _⟩ => ⟨S262144x80, .i32⟩
  | .hbm, ⟨31, _⟩ => ⟨S_, .i32⟩
  | .hbm, ⟨32, _⟩ => ⟨S262144x80, .i32⟩
  | .hbm, ⟨33, _⟩ => ⟨S262144x80, .i32⟩
  | .hbm, ⟨34, _⟩ => ⟨S20971520, .f32⟩
  | .hbm, ⟨35, _⟩ => ⟨S20971520, .i32⟩
  | .hbm, ⟨36, _⟩ => ⟨S_, .f32⟩
  | .hbm, ⟨37, _⟩ => ⟨S10, .f32⟩
  | .hbm, ⟨38, _⟩ => ⟨S20971520x1, .i32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S10, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S10, .f32⟩
  | .hbm, ⟨49, _⟩ => ⟨S10, .i1⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S10, .f32⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S_, .i32⟩
  | .hbm, ⟨60, _⟩ => ⟨S262144x80, .i32⟩
  | .hbm, ⟨61, _⟩ => ⟨S262144x80, .i1⟩
  | .hbm, ⟨62, _⟩ => ⟨S_, .i32⟩
  | .hbm, ⟨63, _⟩ => ⟨S262144x80, .i32⟩
  | .hbm, ⟨64, _⟩ => ⟨S262144x80, .i32⟩
  | .hbm, ⟨65, _⟩ => ⟨S262144x80, .i32⟩
  | .hbm, ⟨66, _⟩ => ⟨S262144x80x1, .i32⟩
  | .hbm, ⟨67, _⟩ => ⟨S262144x80, .f32⟩
  | .hbm, ⟨68, _⟩ => ⟨S262144x80, .f32⟩
  | .hbm, ⟨69, _⟩ => ⟨S_, .f32⟩
  | .hbm, ⟨70, _⟩ => ⟨S_, .i1⟩
  | .hbm, ⟨71, _⟩ => ⟨S262144x80, .f32⟩
  | .hbm, ⟨72, _⟩ => ⟨S262144x80, .f32⟩
  | .hbm, ⟨73, _⟩ => ⟨S262144x80, .f32⟩
  | .hbm, ⟨74, _⟩ => ⟨S_, .f32⟩
  | .hbm, ⟨75, _⟩ => ⟨S262144x80, .f32⟩
  | .hbm, ⟨76, _⟩ => ⟨S262144x80, .f32⟩
  | .hbm, ⟨77, _⟩ => ⟨S262144x80, .f32⟩
  | .hbm, ⟨78, _⟩ => ⟨S262144x80, .f32⟩
  | .hbm, ⟨79, _⟩ => ⟨S262144x80, .i1⟩
  | .hbm, ⟨80, _⟩ => ⟨S262144x80, .f32⟩
  | .hbm, ⟨81, _⟩ => ⟨S262144x80, .f32⟩
  | .hbm, ⟨82, _⟩ => ⟨S262144x80, .f32⟩
  | .hbm, ⟨83, _⟩ => ⟨S262144x80, .f32⟩
  | .hbm, ⟨84, _⟩ => ⟨S262144x80, .f32⟩
  | .hbm, ⟨85, _⟩ => ⟨S262144x80, .f32⟩
  | .hbm, ⟨86, _⟩ => ⟨S262144x80, .f32⟩
  | .hbm, ⟨87, _⟩ => ⟨S262144x80, .f32⟩
  | .hbm, ⟨88, _⟩ => ⟨S262144x80, .f32⟩
  | .hbm, ⟨89, _⟩ => ⟨S262144x80, .f32⟩
  | .hbm, ⟨90, _⟩ => ⟨S262144x80, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S262144x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_15 : Ref sig .tc := ⟨.hbm, 91, rfl⟩
abbrev main_v51 : Ref sig .tc := ⟨.hbm, 92, rfl⟩
abbrev main_v52 : Ref sig .tc := ⟨.hbm, 93, rfl⟩
abbrev main_cst_16 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  bcast_S_S262144x80 : S_.BroadcastsInDim S262144x80 (![] : Fin 0 → Fin S262144x80.rank)
  reducesTo_S262144x80_S_d0_1 : S262144x80.ReducesTo [0, 1] S_
  h_S_ : 0 < S_.numel
  shapeCasts_S262144x80_S20971520 : S262144x80.ShapeCasts S20971520
  bcast_S_S10 : S_.BroadcastsInDim S10 (![] : Fin 0 → Fin S10.rank)
  bcast_S20971520_S20971520x1_0 : S20971520.BroadcastsInDim S20971520x1 (![0] : Fin 1 → Fin S20971520x1.rank)
  natLt_1_32 : 1 < 32
  reducesTo_S10_S_d0 : S10.ReducesTo [0] S_
  bcast_S262144x80_S262144x80x1_0_1 : S262144x80.BroadcastsInDim S262144x80x1 (![0, 1] : Fin 2 → Fin S262144x80x1.rank)
  scatter_S10_S20971520x1_S20971520_n_0_0_1_wf : ScatterDims.WF S10 S20971520x1 S20971520 [] [0] [0] 1
  gather_S10_S262144x80x1_S262144x80_n_0_n_n_0_2_1_wf : GatherDims.WF S10 S262144x80x1 S262144x80 [] [0] [] [0] [] 2 ![1]

variable [Facts₀]

def scatter_S10_S20971520x1_S20971520_n_0_0_1 : ScatterDims S10 S20971520x1 S20971520 where
  updateWindowDims := []
  insertedWindowDims := [0]
  scatterDimsToOperandDims := [0]
  indexVectorDim := 1
  wf := scatter_S10_S20971520x1_S20971520_n_0_0_1_wf
def gather_S10_S262144x80x1_S262144x80_n_0_n_n_0_2_1 : GatherDims S10 S262144x80x1 S262144x80 where
  offsetDims := []
  collapsedSliceDims := [0]
  operandBatchingDims := []
  startIndicesBatchingDims := []
  startIndexMap := [0]
  indexVectorDim := 2
  sliceSizes := ![1]
  wf := gather_S10_S262144x80x1_S262144x80_n_0_n_n_0_2_1_wf

class Facts : Prop extends Facts₀ where

variable [Facts]
-- ==== Proof.Spec.lean ====
/-
  The mathematics both programs are compared through: the loss of gradient-harmonised binary cross-entropy
  over N = 262144 × 80 elements, as plain functions on the extended reals.

  Per element, from a prediction x, a target y and a label weight w:
    vf w       = 1 if w > 0, else 0                      (is the element counted)
    grad x y   = |1 / (1 + e^(-x)) - y|                   (the gradient's size)
    bin x y    = floor (10 · grad x y) as an integer, clamped to 0 … 9   (its bin)
    bce x y    = max x 0 + log (1 + e^(-|x|)) - x · y     (the cross-entropy with logits)
  Per bin k: the count  cnt k = ∑ over elements in bin k of vf,  the sum  sm k = ∑ over elements in bin k of bce · vf.
  With tot = max (∑ cnt) 1 and n = the number of bins whose count is positive, bin k weighs  w k = tot / max (cnt k) 1
  (0 for an empty bin), and the loss is  (∑ₖ w k · sm k) / n / tot  (no division by n when n = 0).
  One program forms the bins' sums first (`lossOfBins`), the other gives every element its bin's weight and sums once
  (`lossOfElems`); over finite values these agree.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Ghm

open Idealize.ShloMosaic Idealize.ShloMosaic.ValueIdx

/-! ## Shapes -/

abbrev S_ : Shape := ⟨0, ![]⟩
abbrev S10 : Shape := ⟨1, ![10]⟩
abbrev S262144x80 : Shape := ⟨2, ![262144, 80]⟩
abbrev S4096x128 : Shape := ⟨2, ![4096, 128]⟩

/-! ## The float literals the programs carry: 0, 1 and 10 -/

abbrev lit0 : EReal := Ideal.ofBits .f32 0x00000000#32
abbrev lit1 : EReal := Ideal.ofBits .f32 0x3F800000#32
abbrev lit10 : EReal := Ideal.ofBits .f32 0x41200000#32

/-! ## One element -/

/-- 1 where the label weight is positive, else 0. -/
def vf (w : EReal) : EReal := (((Ideal.cmp .ogt w lit0).toNat : ℝ) : EReal)

/-- The size of the gradient, |sigmoid x - y|. -/
def grad (x y : EReal) : EReal := max (Ideal.logistic x - y) (-(Ideal.logistic x - y))

/-- The element's bin: floor (10 · grad) as a signed 32-bit integer, clamped to 0 … 9. -/
def bin (x y : EReal) : BitVec 32 :=
  IntOp.minsi 9#32 (IntOp.maxsi 0#32 (Ideal.fptosi 32 (Ideal.liftRound Int.floor (grad x y * lit10))))

/-- softplus x = max x 0 + log (1 + e^(-|x - 0|)). -/
def softplus (x : EReal) : EReal := max x lit0 + Ideal.log1p (Ideal.exp (-(max (x - lit0) (-(x - lit0)))))

/-- Binary cross-entropy with logits. -/
def bce (x y : EReal) : EReal := softplus x - x * y

/-- 1 where the bin `β` is `k`, else 0 (a comparison widened to 32 bits and read as a signed integer). -/
def ind (k β : BitVec 32) : EReal := ((((IntOp.cmpi .eq β k).setWidth 32).toInt : ℝ) : EReal)

/-- Bin number `k` as the 32-bit integer the programs compare with. -/
def binNo (k : S10.Idx) : BitVec 32 := BitVec.ofNat 32 (k 0).val

/-- The row of a ten-entry table a bin value reads: the value as a signed integer, clamped to 0 … 9. -/
def binIx (β : BitVec 32) : S10.Idx := ix1 ⟨min β.toInt.toNat 9, by omega⟩

/-! ## The ten bins' post-processing -/

/-- The number of bins with a positive count, as a float: the bins' comparisons widened to 32 bits, summed as integers
    (the host's integer reduction, whose two shape facts are taken as arguments), and converted. -/
def nOf (h : S10.ReducesTo [0] S_) (hu : 0 < S_.numel) (cnt : S10.Idx → EReal) : EReal :=
  ((((Host.reduce IntOp.addi (fun k : S10.Idx => ((Ideal.cmp .ogt (cnt k) lit0).setWidth 32 : BitVec 32))
      (fun _ : S_.Idx => (0#32 : BitVec 32)) h hu) ix0).toInt : ℝ) : EReal)

/-- The total count, at least one. -/
def totOf (s : EReal) : EReal := max s lit1

/-- A bin's weight: tot / max (cnt k) 1, and 0 for an empty bin. -/
def wOf (tot : EReal) (cnt : S10.Idx → EReal) (k : S10.Idx) : EReal :=
  if Ideal.cmp .ogt (cnt k) lit0 = 1 then Ideal.div tot (max (cnt k) lit1) else lit0

/-- The loss from the bins' counts and sums: (∑ₖ w k · sm k) / n / tot, times one. -/
def lossOfBins (n : EReal) (cnt sm : S10.Idx → EReal) : EReal :=
  let tot := totOf (lit0 + ∑ k : S10.Idx, cnt k)
  let raw := lit0 + ∑ k : S10.Idx, wOf tot cnt k * sm k
  Ideal.div (if Ideal.cmp .ogt n lit0 = 1 then Ideal.div raw n else raw) tot * lit1

/-- The loss summed element by element over an index type `ι`: every element weighs its bin's weight times its validity,
    over n; v = validity, β = bin, c = cross-entropy; the counts are the sums of `v` over the elements of each bin. -/
def lossOfElems {ι : Type} [Fintype ι] (h : S10.ReducesTo [0] S_) (hu : 0 < S_.numel)
    (v : ι → EReal) (β : ι → BitVec 32) (c : ι → EReal) : EReal :=
  let tot := totOf (lit0 + ∑ i : ι, v i)
  let cnt : S10.Idx → EReal := fun k => lit0 + ∑ i ∈ Finset.univ.filter (fun i : ι => (β i).toInt = ((k 0).val : Int)), v i
  let n := nOf h hu cnt
  let wt : ι → EReal := fun i => wOf tot cnt (binIx (β i)) * v i
  let wt' : ι → EReal := fun i => if Ideal.cmp .ogt n lit0 = 1 then Ideal.div (wt i) n else wt i
  Ideal.div (lit0 + ∑ i : ι, c i * wt' i) tot * lit1

/-- The bins' counts and sums as sums over all elements of an indicator times the summand. -/
def cntOf {ι : Type} [Fintype ι] (v : ι → EReal) (β : ι → BitVec 32) (k : S10.Idx) : EReal :=
  lit0 + ∑ i : ι, ind (binNo k) (β i) * v i
def smOf {ι : Type} [Fintype ι] (v : ι → EReal) (β : ι → BitVec 32) (c : ι → EReal) (k : S10.Idx) : EReal :=
  lit0 + ∑ i : ι, ind (binNo k) (β i) * (c i * v i)

/-! ## The re-laying of the [262144, 80] arrays as [163840, 128] = 40 tiles of [4096, 128] -/

/-- The position, in a [262144, 80] array, of the element that the row-major re-laying to [163840, 128] puts at row
    t · 4096 + p, lane q: the linear position t · 524288 + p · 128 + q split by 80. -/
def lin (t : Fin 40) (j : S4096x128.Idx) : S262144x80.Idx :=
  ix2 (⟨(t.val * 524288 + (j 0).val * 128 + (j 1).val) / 80, by
        have h0 := idx2_lt0 j; have h1 := idx2_lt1 j; have := t.isLt; omega⟩ : Fin 262144)
      (⟨(t.val * 524288 + (j 0).val * 128 + (j 1).val) % 80, Nat.mod_lt _ (by norm_num)⟩ : Fin 80)

end Cert.Ghm

end
-- ==== Proof.ElemFacts.lean ====
/-
  Three facts about one element of the loss: the validity flag is 0 or 1, the bin lies in 0 … 9, and the
  cross-entropy of real arguments is a real number.
-/
import proofs.«179587_j1580547966503_2_alg».proof.Proof.Spec

noncomputable section

namespace Cert.Ghm.ElemFacts

open Idealize.ShloMosaic Cert.Ghm

/-- The validity flag is a decided comparison read as a number: 0 or 1. -/
theorem vf_cases (w : EReal) : vf w = 0 ∨ vf w = 1 := by
  have h0 : lit0 = 0 := Ideal.ofBits_zero_f32
  unfold vf Ideal.cmp
  rw [h0]
  by_cases h : (0 : EReal) < w
  · right; simp [h]
  · left; simp [h]

/-- A signed maximum with 0 followed by a signed minimum with 9 lands in 0 … 9, whatever the word clamped. -/
theorem bin_range (x y : EReal) : 0 ≤ (bin x y).toInt ∧ (bin x y).toInt ≤ 9 := by
  unfold bin
  generalize Ideal.fptosi 32 (Ideal.liftRound Int.floor (grad x y * lit10)) = z
  have h9 : (9#32 : BitVec 32).toInt = 9 := by decide
  have h0 : (0#32 : BitVec 32).toInt = 0 := by decide
  unfold IntOp.minsi IntOp.maxsi
  by_cases hz : z.slt 0#32 = true
  · rw [if_pos hz]
    have : (9#32 : BitVec 32).slt 0#32 = false := by decide
    rw [this]; simp [h0]
  · rw [if_neg hz]
    have hz' : ¬ z.toInt < 0 := by
      intro hlt; apply hz; rw [BitVec.slt, h0]; exact decide_eq_true hlt
    by_cases h : (9#32 : BitVec 32).slt z = true
    · rw [if_pos h, h9]; omega
    · rw [if_neg h]
      have h' : ¬ (9 : Int) < z.toInt := by
        intro hlt; apply h; rw [BitVec.slt, h9]; exact decide_eq_true hlt
      omega

/-- Over real arguments every step of the cross-entropy stays real: 1 + e^t is positive, so its logarithm is a real. -/
theorem bce_real (x y : ℝ) : ∃ r : ℝ, bce (x : EReal) (y : EReal) = (r : EReal) := by
  have h0 : lit0 = ((0 : ℝ) : EReal) := Ideal.ofBits_zero_f32
  have hmax : ∀ a b : ℝ, max (a : EReal) (b : EReal) = ((max a b : ℝ) : EReal) :=
    fun a b => (EReal.coe_strictMono.monotone.map_max).symm
  have hpos : ¬ (1 + Real.exp (-(max (x - 0) (-(x - 0)))) ≤ 0) := by
    have := Real.exp_pos (-(max (x - 0) (-(x - 0)))); linarith
  refine ⟨max x 0 + Real.log (1 + Real.exp (-(max (x - 0) (-(x - 0))))) - x * y, ?_⟩
  unfold bce softplus Ideal.log1p
  rw [h0, ← EReal.coe_sub, ← EReal.coe_neg, hmax, hmax, ← EReal.coe_neg, Ideal.exp_coe, ← EReal.coe_one,
    ← EReal.coe_add, Ideal.log_coe, if_neg hpos, ← EReal.coe_add, ← EReal.coe_mul, ← EReal.coe_sub]

end Cert.Ghm.ElemFacts

end
-- ==== Proof.Finite.lean ====
/-
  Under the precondition that all three argument arrays are finite, every entry of each is a real number.
  The precondition is the conjunction of three "all |a| < +inf" tests; each test, read back at an entry x, says
  max x (-x) < ⊤ in the extended reals, which fails at ⊥ and at ⊤ and so leaves x real.
-/
import proofs.«179587_j1580547966503_2_alg».proof.Defs
import proofs.«179587_j1580547966503_2_alg».proof.Proof.Gen.Pre_finite_inputs
import Idealize.ShloMosaic.Lib.ReduceAll

noncomputable section

namespace Cert.Ghm.Finite

open Idealize.ShloMosaic

/-- The scalar shape has one index. -/
instance : Subsingleton Cert.Pre_finite_inputs.S_.Idx := ⟨fun a b => funext fun d => d.elim0⟩

/-- The pattern 0x7F800000 is +inf. -/
theorem inf_eq_top : Ideal.ofBits .f32 0x7F800000#32 = (⊤ : EReal) := by simp [Ideal.ofBits, Ideal.ieee]

/-- An extended real whose absolute value max x (-x) is below +inf is a real number: at ⊥ and at ⊤ the absolute value is ⊤. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- Every entry of the three arrays is real when the finiteness test answers 1. -/
theorem real_of_fn (a0 a1 a2 : FVec Ideal Cert.Pre_finite_inputs.S262144x80 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h (fun a => a.elim0)
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)

end Cert.Ghm.Finite

end
-- ==== Proof.Algebra.lean ====
/-
  The algebraic heart of the comparison: summing element by element, each element weighed by its bin's weight,
  equals post-processing the ten bins' sums — over the extended reals, from finiteness.

  The counts  cnt k = ∑ over the elements of bin k of v  are the sums  ∑ᵢ [β i = k] · v i,  because a bin value between
  0 and 9 equals bin number k exactly when k is the row it reads; so both sides count the bins in use alike and weigh
  the bins alike. The counts add up to ∑ᵢ v i (exactly one indicator is on per element), so the totals agree.
  Distributivity fails at the infinities, so the exchange
      ∑ᵢ c i · (w (bin i) · v i) [/ n]  =  (∑ₖ w k · ∑ᵢ [β i = k] · (c i · v i)) [/ n]
  is done over real witnesses: v i ∈ {0, 1}, c i real, the counts and the total finite sums of reals, each weight a
  real quotient by a divisor ≥ 1, and n an integer; dividing by a nonzero real is multiplying by its reciprocal.
-/
import proofs.«179587_j1580547966503_2_alg».proof.Proof.Spec
import Idealize.ShloMosaic.Lib.IdealHost
open Cert.Ghm Idealize.ShloMosaic Idealize.ShloMosaic.ValueIdx
open scoped BigOperators

namespace Cert.Ghm.Algebra

/-! ## The literals, the indicator and the bin numbering -/

theorem lit0_eq : lit0 = 0 := Ideal.ofBits_zero_f32
theorem lit1_eq : lit1 = 1 := Ideal.ofBits_one_f32

/-- The indicator is 1 at equality and 0 elsewhere. -/
theorem ind_eq (k β : BitVec 32) : ind k β = if β = k then 1 else 0 := by
  unfold ind IntOp.cmpi
  by_cases h : β = k
  · subst h; simp
  · have hb : (β == k) = false := by simpa using h
    simp [hb, h]

/-- A number below ten, as a 32-bit pattern, reads back as itself. -/
theorem toInt_ofNat_small (n : Nat) (h : n < 10) : (BitVec.ofNat 32 n).toInt = (n : Int) := by
  interval_cases n <;> rfl

theorem toInt_binNo (k : S10.Idx) : (binNo k).toInt = ((k 0).val : Int) :=
  toInt_ofNat_small (k 0).val (k 0).isLt

/-- A bin value between 0 and 9 is bin number `k` exactly when `k` is the row it reads. -/
theorem binNo_eq_iff (β : BitVec 32) (hβ : 0 ≤ β.toInt ∧ β.toInt ≤ 9) (k : S10.Idx) :
    β = binNo k ↔ k = binIx β := by
  obtain ⟨a, rfl⟩ : ∃ a, k = ix1 a := ⟨k 0, eq_ix1 k⟩
  have ha := a.isLt
  have hk : (binNo (ix1 a)).toInt = (a.val : Int) := toInt_ofNat_small a.val ha
  constructor
  · intro h
    rw [h] at hβ ⊢
    unfold binIx
    congr 1
    apply Fin.ext
    show a.val = min (binNo (ix1 a)).toInt.toNat 9
    rw [hk]; omega
  · intro h
    have h0 := congrFun h 0
    have h1 : a.val = min β.toInt.toNat 9 := congrArg Fin.val h0
    apply BitVec.eq_of_toInt_eq
    rw [hk]; omega

/-- The same through the signed reading. -/
theorem toInt_eq_iff (β : BitVec 32) (hβ : 0 ≤ β.toInt ∧ β.toInt ≤ 9) (k : S10.Idx) :
    β.toInt = ((k 0).val : Int) ↔ k = binIx β := by
  rw [← binNo_eq_iff β hβ k]
  constructor
  · intro h; apply BitVec.eq_of_toInt_eq; rw [toInt_binNo]; exact h
  · intro h; rw [h, toInt_binNo]

/-- The indicator of bin `k` at a bin value in range, as a real number. -/
theorem ind_coe (β : BitVec 32) (hβ : 0 ≤ β.toInt ∧ β.toInt ≤ 9) (k : S10.Idx) :
    ind (binNo k) β = (((if k = binIx β then 1 else 0 : ℝ)) : EReal) := by
  rw [ind_eq]
  by_cases h : k = binIx β
  · rw [if_pos h, if_pos ((binNo_eq_iff β hβ k).2 h), EReal.coe_one]
  · rw [if_neg h, if_neg (fun h' => h ((binNo_eq_iff β hβ k).1 h')), EReal.coe_zero]

/-- The indicator of bin `k` times `x` is `x` at the row the bin value reads, and 0 elsewhere. -/
theorem ind_mul (β : BitVec 32) (hβ : 0 ≤ β.toInt ∧ β.toInt ≤ 9) (k : S10.Idx) (x : EReal) :
    ind (binNo k) β * x = if k = binIx β then x else 0 := by
  rw [ind_eq]
  by_cases h : k = binIx β
  · rw [if_pos h, if_pos ((binNo_eq_iff β hβ k).2 h), one_mul]
  · rw [if_neg h, if_neg (fun h' => h ((binNo_eq_iff β hβ k).1 h')), zero_mul]

/-- Exactly one bin's indicator is on. -/
theorem sum_ind_mul (β : BitVec 32) (hβ : 0 ≤ β.toInt ∧ β.toInt ≤ 9) (x : EReal) :
    ∑ k : S10.Idx, ind (binNo k) β * x = x := by
  simp_rw [ind_mul β hβ]
  rw [Finset.sum_ite_eq']
  simp

/-! ## Sums of real numbers, in the extended reals -/

theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ## The counts and the total -/

/-- The counts as sums over each bin's elements are the counts as sums of indicator times validity. -/
theorem cnt_eq {ι : Type} [Fintype ι] [DecidableEq ι] (v : ι → EReal) (β : ι → BitVec 32)
    (hβ : ∀ i, 0 ≤ (β i).toInt ∧ (β i).toInt ≤ 9) :
    (fun k : S10.Idx => lit0 + ∑ i ∈ Finset.univ.filter (fun i : ι => (β i).toInt = ((k 0).val : Int)), v i)
      = cntOf v β := by
  funext k
  unfold cntOf
  congr 1
  rw [Finset.sum_filter]
  refine Finset.sum_congr rfl fun i _ => ?_
  rw [ind_mul (β i) (hβ i)]
  exact if_congr (toInt_eq_iff (β i) (hβ i) k) rfl rfl

/-- The bins' counts add up to the number of valid elements. -/
theorem tot_eq {ι : Type} [Fintype ι] (v : ι → EReal) (β : ι → BitVec 32)
    (hβ : ∀ i, 0 ≤ (β i).toInt ∧ (β i).toInt ≤ 9) :
    ∑ k : S10.Idx, cntOf v β k = ∑ i : ι, v i := by
  unfold cntOf
  simp_rw [lit0_eq, zero_add]
  rw [Finset.sum_comm]
  exact Finset.sum_congr rfl fun i _ => sum_ind_mul (β i) (hβ i) (v i)

/-! ## The exchange of the two sums, over real numbers -/

/-- Weighing every element by its bin's weight and summing once is weighing every bin's sum: for real weights
    `w`, validities `vr` and cross-entropies `cr`. -/
theorem core {ι : Type} [Fintype ι] (β : ι → BitVec 32) (hβ : ∀ i, 0 ≤ (β i).toInt ∧ (β i).toInt ≤ 9)
    (w : S10.Idx → ℝ) (vr cr : ι → ℝ) :
    ∑ i, (cr i : EReal) * ((w (binIx (β i)) : EReal) * (vr i : EReal))
      = ∑ k : S10.Idx, (w k : EReal) * (lit0 + ∑ i, ind (binNo k) (β i) * ((cr i : EReal) * (vr i : EReal))) := by
  simp only [lit0_eq, zero_add, fun i k => ind_coe (β i) (hβ i) k, ← EReal.coe_mul, ← coe_sum]
  rw [EReal.coe_eq_coe_iff]
  simp_rw [Finset.mul_sum]
  rw [Finset.sum_comm]
  refine Finset.sum_congr rfl fun i _ => ?_
  simp only [ite_mul, one_mul, zero_mul, mul_ite, mul_zero, Finset.sum_ite_eq', Finset.mem_univ, if_true]
  ring

/-- The same with every element's weight divided by a nonzero real `n`: the division comes out of the sum. -/
theorem core_div {ι : Type} [Fintype ι] (β : ι → BitVec 32) (hβ : ∀ i, 0 ≤ (β i).toInt ∧ (β i).toInt ≤ 9)
    (w : S10.Idx → ℝ) (vr cr : ι → ℝ) (n : ℝ) (hn : n ≠ 0) :
    lit0 + ∑ i, (cr i : EReal) * Ideal.div ((w (binIx (β i)) : EReal) * (vr i : EReal)) (n : EReal)
      = Ideal.div (lit0 + ∑ k : S10.Idx, (w k : EReal) *
          (lit0 + ∑ i, ind (binNo k) (β i) * ((cr i : EReal) * (vr i : EReal)))) (n : EReal) := by
  rw [← core β hβ]
  simp only [Ideal.div_coe hn, lit0_eq, zero_add, ← EReal.coe_mul, ← coe_sum]
  rw [EReal.coe_eq_coe_iff, Finset.sum_mul]
  refine Finset.sum_congr rfl fun i _ => ?_
  ring

/-! ## Every piece is a real number -/

/-- A bin's weight is real when the total and the counts are: the divisor `max (cnt k) 1` is a real number
    that is at least one, so the quotient is the product with its reciprocal. -/
theorem wOf_real (tr : ℝ) (cntr : S10.Idx → ℝ) (cnt : S10.Idx → EReal) (hcnt : ∀ k, cnt k = (cntr k : EReal))
    (k : S10.Idx) : ∃ r : ℝ, wOf (tr : EReal) cnt k = (r : EReal) := by
  unfold wOf
  split_ifs
  · have hpos : max (cntr k) 1 ≠ 0 := ne_of_gt (lt_of_lt_of_le one_pos (le_max_right _ _))
    refine ⟨tr * (1 / max (cntr k) 1), ?_⟩
    rw [hcnt k, lit1_eq, ← EReal.coe_one, ← coe_max, Ideal.div_coe hpos, ← EReal.coe_mul]
  · exact ⟨0, lit0_eq⟩

/-! ## The two losses agree -/

theorem lossOfElems_eq_lossOfBins {ι : Type} [Fintype ι] [DecidableEq ι] (h : S10.ReducesTo [0] S_) (hu : 0 < S_.numel)
    (v : ι → EReal) (β : ι → BitVec 32) (c : ι → EReal)
    (hv : ∀ i, v i = 0 ∨ v i = 1)
    (hβ : ∀ i, 0 ≤ (β i).toInt ∧ (β i).toInt ≤ 9)
    (hc : ∀ i, ∃ r : ℝ, c i = (r : EReal)) :
    lossOfElems h hu v β c = lossOfBins (nOf h hu (cntOf v β)) (cntOf v β) (smOf v β c) := by
  -- real witnesses for the validities and the cross-entropies
  have hv' : ∀ i, ∃ r : ℝ, v i = (r : EReal) := fun i => by
    rcases hv i with h0 | h1
    · exact ⟨0, h0⟩
    · exact ⟨1, h1⟩
  choose vr hvr using hv'
  choose cr hcr using hc
  obtain rfl : v = fun i => (vr i : EReal) := funext hvr
  obtain rfl : c = fun i => (cr i : EReal) := funext hcr
  -- the counts are real
  have hcnt : ∀ k, cntOf (fun i => (vr i : EReal)) β k
      = ((∑ i, (if k = binIx (β i) then 1 else 0 : ℝ) * vr i : ℝ) : EReal) := fun k => by
    unfold cntOf
    simp only [lit0_eq, zero_add, fun i k => ind_coe (β i) (hβ i) k, ← EReal.coe_mul, ← coe_sum]
  -- the total is real
  obtain ⟨tr, htr⟩ : ∃ tr : ℝ, totOf (lit0 + ∑ i, (vr i : EReal)) = (tr : EReal) :=
    ⟨max (∑ i, vr i) 1, by unfold totOf; rw [lit0_eq, zero_add, lit1_eq, ← coe_sum, ← EReal.coe_one, ← coe_max]⟩
  -- the number of bins in use is real
  obtain ⟨nr, hnr⟩ : ∃ nr : ℝ, nOf h hu (cntOf (fun i => (vr i : EReal)) β) = (nr : EReal) := ⟨_, rfl⟩
  -- the weights are real
  choose wr hwr using wOf_real tr _ (cntOf (fun i => (vr i : EReal)) β) hcnt
  unfold lossOfElems lossOfBins
  dsimp only
  rw [cnt_eq _ β hβ, tot_eq _ β hβ, htr, hnr]
  simp only [hwr]
  congr 2
  by_cases hpos : 0 < nr
  · have hn1 : Ideal.cmp .ogt (nr : EReal) lit0 = 1 := by simp [Ideal.cmp, hpos]
    have hn0 : nr ≠ 0 := ne_of_gt hpos
    simp only [if_pos hn1]
    unfold smOf
    exact core_div β hβ wr vr cr nr hn0
  · have hn1 : ¬ Ideal.cmp .ogt (nr : EReal) lit0 = 1 := by simp [Ideal.cmp, hpos]
    simp only [if_neg hn1]
    unfold smOf
    exact congrArg (lit0 + ·) (core β hβ wr vr cr)

end Cert.Ghm.Algebra
-- ==== Proof.RefValue.lean ====
/-
  The reference program's result, read back as the loss summed element by element.

  The reference forms, for each of the N = 262144 × 80 elements, its validity v = vf w, its bin β = bin x y and its
  cross-entropy bce x y; counts the valid elements of each of the ten bins by an accumulating scatter over the flat
  re-laying of the elements (position p holds element (p / 80, p % 80)); turns the counts into the number n of non-empty
  bins and a weight per bin; gives every element its bin's weight (a gather of the ten weights at the element's bin,
  which is never negative, so the wrap of a negative index never acts) times its validity, over n when n is positive;
  and sums cross-entropy times weight over all elements, divides by the total count (at least one) and multiplies by one.
  Read operation by operation at the exact extended reals this is `lossOfElems` of the three element functions.
-/
import proofs.«179587_j1580547966503_2_alg».proof.Proof.RefRead
import proofs.«179587_j1580547966503_2_alg».proof.Proof.Spec

noncomputable section

open scoped BigOperators

namespace Cert.Ghm.RefValue

open Cert.ReferenceIdeal Cert.ReferenceIdeal.Gen Cert.ReferenceIdeal.ReadP Cert.Ghm Idealize.ShloMosaic Idealize.ShloMosaic.ValueIdx

/-- The type of the three argument arrays: predictions, targets, label weights. -/
abbrev Arr : Type := (⟨Cert.ReferenceIdeal.S262144x80, .f32⟩ : BufTy).Contents (Elt Ideal)

/-! ## One element: validity, bin, cross-entropy -/

theorem lit1_eq : lit1 = 1 := by
  show Ideal.ofBits .f32 0x3F800000#32 = 1
  simp [Ideal.ofBits, Ideal.ieee, -EReal.coe_mul]; norm_num

theorem cmp_une_self (z : EReal) : Ideal.cmp .une z z = 0#1 := by
  simp [Ideal.cmp]

theorem v2_eq (c : Arr) (i : Cert.ReferenceIdeal.S262144x80.Idx) : val_main_v2 (F := Ideal) c i = vf (c i) := by
  rw [val_main_v2_apply, val_main_v1_apply, val_main_v0_apply, val_main_cst_apply]; rfl

theorem v17_eq (a b : Arr) (i : Cert.ReferenceIdeal.S262144x80.Idx) : val_main_v17 (F := Ideal) a b i = bin (a i) (b i) := by
  rw [val_main_v17_apply, val_main_call0_v4_apply, val_main_call0_v3_apply, val_main_c_5_apply,
    val_main_call0_v2_apply, val_main_call0_v1_apply, val_main_call0_v0_apply, val_main_c_apply,
    val_main_v16_apply, val_main_v15_apply, val_main_v14_apply, val_main_v13_apply, val_main_cst_4_apply,
    val_main_v12_apply, val_main_v11_apply, val_main_v10_apply, val_main_v9_apply, val_main_cst_3_apply,
    val_main_v8_apply, val_main_v7_apply, val_main_cst_2_apply, val_main_v6_apply, val_main_v5_apply]
  show IntOp.minsi 9#32 (IntOp.maxsi 0#32 (Ideal.fptosi 32 (Ideal.liftRound Int.floor
    (max (Ideal.div lit1 (lit1 + Ideal.exp (-(a i))) - b i) (-(Ideal.div lit1 (lit1 + Ideal.exp (-(a i))) - b i)) * lit10)))) = _
  rw [lit1_eq]; rfl

theorem v49_eq (a b : Arr) (i : Cert.ReferenceIdeal.S262144x80.Idx) : val_main_v49 (F := Ideal) a b i = bce (a i) (b i) := by
  rw [val_main_v49_apply, val_main_v47_apply, val_main_call3_v4_apply]
  have h0 : (FloatOps.cmpf (F := Ideal) (φ := .f32) .une (val_main_call3_v3 (F := Ideal) a i) (val_main_call3_v3 (F := Ideal) a i) : BitVec 1) = 0#1 :=
    cmp_une_self _
  rw [h0, select_zero]
  rw [val_main_call3_v11_apply, val_main_call3_v1_apply, val_main_call3_v0_apply, val_main_call3_cst_apply,
    val_main_call3_v10_apply, val_main_call3_v9_apply, val_main_call3_v8_apply, val_main_call3_v7_apply,
    val_main_call3_v3_apply, val_main_call3_v2_apply, val_main_call3_cst_apply, val_main_v48_apply]
  rfl

/-! ## The accumulating scatter, read at a bin

The scatter adds update `j` of the flat array to the bin whose number is the signed value of index `(j, 0)`; an
index outside `0 … 9` lands nowhere. -/

/-- The scatter-indices index `(j, 0)` of update `j`. -/
abbrev sIdx (j : Cert.ReferenceIdeal.S20971520.Idx) : Cert.ReferenceIdeal.S20971520x1.Idx :=
  fun a => match a with | ⟨0, _⟩ => ⟨(j 0).val, (j 0).isLt⟩ | ⟨1, _⟩ => ⟨0, Nat.one_pos⟩

theorem scatter_start {w : Nat} (idx : IVec Cert.ReferenceIdeal.S20971520x1 w) (j : Cert.ReferenceIdeal.S20971520.Idx) :
    scatter_S10_S20971520x1_S20971520_n_0_0_1.start j idx 0 = (idx (sIdx j)).toInt := by
  unfold ScatterDims.start
  rw [dif_pos (show (0 : Fin 1) ∈ scatter_S10_S20971520x1_S20971520_n_0_0_1.scatterDimsToOperandDims from List.mem_singleton.mpr rfl)]
  have hsi : scatter_S10_S20971520x1_S20971520_n_0_0_1.siIdx j
      ⟨List.idxOf (0 : Fin 1) scatter_S10_S20971520x1_S20971520_n_0_0_1.scatterDimsToOperandDims,
        List.idxOf_lt_length_iff.2 (List.mem_singleton.mpr rfl)⟩ = sIdx j := by
    funext b; refine Fin.ext ?_
    match b with
    | ⟨0, _⟩ => rfl
    | ⟨1, _⟩ => rfl
  rw [hsi]

theorem scatter_window (j : Cert.ReferenceIdeal.S20971520.Idx) :
    scatter_S10_S20971520x1_S20971520_n_0_0_1.window j 0 = 0 := by
  unfold ScatterDims.window
  rw [dif_neg (by decide)]

theorem scatter_lands {w : Nat} (idx : IVec Cert.ReferenceIdeal.S20971520x1 w) (j : Cert.ReferenceIdeal.S20971520.Idx)
    (k : Cert.ReferenceIdeal.S10.Idx) :
    scatter_S10_S20971520x1_S20971520_n_0_0_1.resultIdx? j idx = some k ↔ (idx (sIdx j)).toInt = ((k 0).val : Int) := by
  have hsw : ∀ a : Fin Cert.ReferenceIdeal.S10.rank,
      scatter_S10_S20971520x1_S20971520_n_0_0_1.start j idx a + scatter_S10_S20971520x1_S20971520_n_0_0_1.window j a
        = (idx (sIdx j)).toInt := by
    intro a
    obtain rfl : a = 0 := Subsingleton.elim _ _
    rw [scatter_start, scatter_window]; simp
  have hk10 : (k 0).val < 10 := (k 0).isLt
  unfold ScatterDims.resultIdx?
  split
  · rename_i h
    have h0 := h 0
    rw [hsw] at h0
    constructor
    · intro hk
      have h1 := congrArg Fin.val (congrFun (Option.some.inj hk) 0)
      simp only [hsw] at h1
      omega
    · intro hk
      refine congrArg some ?_
      funext a
      obtain rfl : a = 0 := Subsingleton.elim _ _
      refine Fin.ext ?_
      show (scatter_S10_S20971520x1_S20971520_n_0_0_1.start j idx 0 + scatter_S10_S20971520x1_S20971520_n_0_0_1.window j 0).toNat = (k 0).val
      rw [hsw]; omega
  · rename_i h
    constructor
    · intro hk; cases hk
    · intro hk
      exfalso; apply h
      intro a
      obtain rfl : a = 0 := Subsingleton.elim _ _
      rw [hsw, hk]
      constructor
      · omega
      · show ((k 0).val : Int) < ((10 : Nat) : Int); omega

/-- The scatter at bin `k`: the operand there plus the sum of the updates whose index reads `k`. -/
theorem scatter_apply {w : Nat} (x : Cert.ReferenceIdeal.S10.Idx → EReal) (idx : IVec Cert.ReferenceIdeal.S20971520x1 w)
    (upd : Cert.ReferenceIdeal.S20971520.Idx → EReal) (k : Cert.ReferenceIdeal.S10.Idx) :
    Ideal.hostScatterAdd scatter_S10_S20971520x1_S20971520_n_0_0_1 x idx upd k
      = x k + ∑ j ∈ Finset.univ.filter (fun j : Cert.ReferenceIdeal.S20971520.Idx => (idx (sIdx j)).toInt = ((k 0).val : Int)), upd j := by
  unfold Ideal.hostScatterAdd
  refine congrArg (x k + ·) ?_
  refine Finset.sum_congr (Finset.filter_congr fun j _ => scatter_lands idx j k) (fun _ _ => rfl)

/-! ## The gather of the ten-entry table, read at an element -/

theorem gather_apply {α : Type} {w : Nat} (x : Cert.ReferenceIdeal.S10.Idx → α) (idx : IVec Cert.ReferenceIdeal.S262144x80x1 w)
    (i : Cert.ReferenceIdeal.S262144x80.Idx) :
    Host.gather gather_S10_S262144x80x1_S262144x80_n_0_n_n_0_2_1 x idx i
      = x (ix1 ⟨min (idx (takeIdx i)).toInt.toNat 9, by omega⟩) :=
  gather_take_apply (N := 10) (R := 262144) (C := 80) (by decide) gather_S10_S262144x80x1_S262144x80_n_0_n_n_0_2_1_wf x idx i

theorem bin_nonneg (x y : EReal) : 0 ≤ (bin x y).toInt := by
  unfold bin IntOp.minsi IntOp.maxsi
  generalize Ideal.fptosi 32 (Ideal.liftRound Int.floor (grad x y * lit10)) = z
  simp only [BitVec.slt]
  split <;> split <;> simp_all <;> omega

/-! ## The flat re-laying of the elements -/

/-- Row-major: flat position `p` is element `(p / 80, p % 80)`. -/
def flatEquiv : Cert.ReferenceIdeal.S20971520.Idx ≃ Cert.ReferenceIdeal.S262144x80.Idx where
  toFun := idx_main_v18
  invFun i := ix1 ⟨(i 0).val * 80 + (i 1).val, by have := idx2_lt0 i; have := idx2_lt1 i; omega⟩
  left_inv j := by
    funext d
    match d with
    | ⟨0, _⟩ => exact Fin.ext (by show ((j 0).val / 80) * 80 + (j 0).val % 80 = (j 0).val; omega)
  right_inv i := by
    funext d
    match d with
    | ⟨0, _⟩ => exact Fin.ext (by show ((i 0).val * 80 + (i 1).val) / 80 = (i 0).val; have := idx2_lt1 i; omega)
    | ⟨1, _⟩ => exact Fin.ext (by show ((i 0).val * 80 + (i 1).val) % 80 = (i 1).val; have := idx2_lt1 i; omega)

/-- A sum over the flat positions whose element satisfies `p` is the sum over the elements that satisfy `p`. -/
theorem sum_flat (p : Cert.ReferenceIdeal.S262144x80.Idx → Prop) [DecidablePred p] (v : Cert.ReferenceIdeal.S262144x80.Idx → EReal) :
    ∑ j ∈ Finset.univ.filter (fun j : Cert.ReferenceIdeal.S20971520.Idx => p (idx_main_v18 j)), v (idx_main_v18 j)
      = ∑ i ∈ Finset.univ.filter (fun i => p i), v i := by
  rw [Finset.sum_filter, Finset.sum_filter]
  exact Fintype.sum_equiv flatEquiv _ _ (fun _ => rfl)

/-! ## The stages -/

/-- The bins' counts. -/
def cntR (a b c : Arr) : Cert.Ghm.S10.Idx → EReal := fun k =>
  lit0 + ∑ i ∈ Finset.univ.filter (fun i : Cert.ReferenceIdeal.S262144x80.Idx => (bin (a i) (b i)).toInt = ((k 0).val : Int)), vf (c i)

/-- The total count, at least one. -/
def totR (c : Arr) : EReal := totOf (lit0 + ∑ i : Cert.ReferenceIdeal.S262144x80.Idx, vf (c i))

/-- The number of non-empty bins. -/
def nR (a b c : Arr) : EReal := nOf reducesTo_S10_S_d0 h_S_ (cntR a b c)

theorem v4_eq (c : Arr) (i : Cert.ReferenceIdeal.S_.Idx) : val_main_v4 (F := Ideal) c i = totR c := by
  rw [val_main_v4_apply, val_main_v3_apply, val_main_cst_1_apply, val_main_cst_0_apply,
    Finset.sum_congr rfl (fun j _ => v2_eq c j)]
  rfl

theorem idx21 (j : Cert.ReferenceIdeal.S20971520.Idx) : idx_main_v21 (sIdx j) = j := by
  funext d; match d with | ⟨0, _⟩ => rfl

theorem v18_eq (c : Arr) (j : Cert.ReferenceIdeal.S20971520.Idx) : val_main_v18 (F := Ideal) c j = vf (c (idx_main_v18 j)) := by
  rw [val_main_v18_apply, v2_eq]

theorem v21_eq (a b : Arr) (j : Cert.ReferenceIdeal.S20971520.Idx) :
    val_main_v21 (F := Ideal) a b (sIdx j) = bin (a (idx_main_v18 j)) (b (idx_main_v18 j)) := by
  rw [val_main_v21_apply, val_main_v19_apply, v17_eq, idx21]

theorem scatterAdd_apply (x : Cert.ReferenceIdeal.S10.Idx → EReal) (idx : IVec Cert.ReferenceIdeal.S20971520x1 32)
    (upd : Cert.ReferenceIdeal.S20971520.Idx → EReal) (k : Cert.ReferenceIdeal.S10.Idx) :
    Host.scatterAdd (F := Ideal) (φ := .f32) scatter_S10_S20971520x1_S20971520_n_0_0_1 x idx upd k
      = x k + ∑ j ∈ Finset.univ.filter (fun j : Cert.ReferenceIdeal.S20971520.Idx => (idx (sIdx j)).toInt = ((k 0).val : Int)), upd j := by
  unfold Host.scatterAdd
  rw [Ideal.hostScatterAdd_def]
  exact scatter_apply x idx upd k

theorem v22_eq (a b c : Arr) (k : Cert.ReferenceIdeal.S10.Idx) : val_main_v22 (F := Ideal) a b c k = cntR a b c k := by
  unfold val_main_v22 cntR
  rw [scatterAdd_apply, val_main_v20_apply, val_main_cst_6_apply]
  have hs : ∑ j ∈ Finset.univ.filter (fun j : Cert.ReferenceIdeal.S20971520.Idx =>
        (val_main_v21 (F := Ideal) a b (sIdx j)).toInt = ((k 0).val : Int)), val_main_v18 (F := Ideal) c j
      = ∑ i ∈ Finset.univ.filter (fun i : Cert.ReferenceIdeal.S262144x80.Idx => (bin (a i) (b i)).toInt = ((k 0).val : Int)), vf (c i) := by
    rw [← sum_flat (fun i => (bin (a i) (b i)).toInt = ((k 0).val : Int)) (fun i => vf (c i))]
    refine Finset.sum_congr (Finset.filter_congr fun j _ => ?_) (fun j _ => v18_eq c j)
    rw [v21_eq]
  rw [hs]
  rfl

/-! ## The number of non-empty bins, the bins' weights, each element's weight -/

theorem v25_fun (a b c : Arr) :
    val_main_v25 (F := Ideal) a b c = fun k : Cert.Ghm.S10.Idx => ((Ideal.cmp .ogt (cntR a b c k) lit0).setWidth 32 : BitVec 32) := by
  funext k
  rw [val_main_v25_apply, val_main_v24_apply, val_main_v23_apply, val_main_cst_7_apply, v22_eq]
  rfl

theorem v27_eq (a b c : Arr) (i : Cert.ReferenceIdeal.S_.Idx) : val_main_v27 (F := Ideal) a b c i = nR a b c := by
  rw [val_main_v27_apply, eq_ix0 i]
  unfold val_main_v26 nR nOf
  rw [v25_fun]
  rfl

theorem v34_eq (a b c : Arr) (k : Cert.ReferenceIdeal.S10.Idx) :
    val_main_v34 (F := Ideal) a b c k = wOf (totR c) (cntR a b c) k := by
  rw [val_main_v34_apply, val_main_v29_apply, val_main_v28_apply, val_main_cst_9_apply, val_main_v33_apply,
    val_main_v32_apply, val_main_v31_apply, val_main_v30_apply, val_main_cst_10_apply, val_main_call1_v1_apply,
    val_main_call1_v0_apply, val_main_cst_11_apply, v22_eq, v4_eq]
  rfl

theorem v34_fun (a b c : Arr) : val_main_v34 (F := Ideal) a b c = wOf (totR c) (cntR a b c) := funext (v34_eq a b c)

/-- A bin number is never negative, so the wrap of a negative index never acts. -/
theorem v39_eq (a b : Arr) (i : Cert.ReferenceIdeal.S262144x80.Idx) : val_main_v39 (F := Ideal) a b i = bin (a i) (b i) := by
  rw [val_main_v39_apply, val_main_v36_apply, val_main_v35_apply, val_main_c_12_apply, v17_eq]
  have h0 : IntOp.cmpi .slt (bin (a i) (b i)) 0#32 = 0#1 := by
    have := bin_nonneg (a i) (b i)
    unfold IntOp.cmpi
    simp only [BitVec.slt]
    rw [show decide ((bin (a i) (b i)).toInt < (0#32 : BitVec 32).toInt) = false from by
      rw [decide_eq_false_iff_not]; simp; omega]
    rfl
  rw [h0, select_zero]

theorem idx40 (i : Cert.ReferenceIdeal.S262144x80.Idx) : idx_main_v40 (takeIdx i) = i := by
  funext d
  match d with
  | ⟨0, _⟩ => rfl
  | ⟨1, _⟩ => rfl

theorem gather_bin {α : Type} (x : Cert.ReferenceIdeal.S10.Idx → α) (idx : IVec Cert.ReferenceIdeal.S262144x80x1 32)
    (i : Cert.ReferenceIdeal.S262144x80.Idx) (β : BitVec 32) (h : idx (takeIdx i) = β) :
    Host.gather gather_S10_S262144x80x1_S262144x80_n_0_n_n_0_2_1 x idx i = x (binIx β) := by
  subst h
  exact gather_apply x idx i

theorem v41_eq (a b c : Arr) (i : Cert.ReferenceIdeal.S262144x80.Idx) :
    val_main_v41 (F := Ideal) a b c i = wOf (totR c) (cntR a b c) (binIx (bin (a i) (b i))) := by
  unfold val_main_v41
  rw [gather_bin _ _ i (bin (a i) (b i)) (by rw [val_main_v40_apply, idx40, v39_eq]), v34_fun]

theorem v42_eq (a b c : Arr) (i : Cert.ReferenceIdeal.S262144x80.Idx) :
    val_main_v42 (F := Ideal) a b c i = wOf (totR c) (cntR a b c) (binIx (bin (a i) (b i))) * vf (c i) := by
  rw [val_main_v42_apply, v41_eq, v2_eq]
  rfl

theorem v46_eq (a b c : Arr) (i : Cert.ReferenceIdeal.S262144x80.Idx) :
    val_main_v46 (F := Ideal) a b c i
      = if Ideal.cmp .ogt (nR a b c) lit0 = 1
        then Ideal.div (wOf (totR c) (cntR a b c) (binIx (bin (a i) (b i))) * vf (c i)) (nR a b c)
        else wOf (totR c) (cntR a b c) (binIx (bin (a i) (b i))) * vf (c i) := by
  unfold val_main_v46
  rw [select_apply, broadcastInDim_apply _ bcast_S_S262144x80 (val_main_v43 (F := Ideal) a b c) i ix0 (fun d => d.elim0),
    val_main_v43_apply, val_main_cst_14_apply, val_main_v45_apply, val_main_v44_apply, v27_eq, v42_eq]
  rfl

/-! ## The loss -/

theorem v50_eq (a b c : Arr) (i : Cert.ReferenceIdeal.S262144x80.Idx) :
    val_main_v50 (F := Ideal) a b c i
      = bce (a i) (b i) * (if Ideal.cmp .ogt (nR a b c) lit0 = 1
        then Ideal.div (wOf (totR c) (cntR a b c) (binIx (bin (a i) (b i))) * vf (c i)) (nR a b c)
        else wOf (totR c) (cntR a b c) (binIx (bin (a i) (b i))) * vf (c i)) := by
  rw [val_main_v50_apply, v49_eq, v46_eq]
  rfl

/-- The reference program's result is the loss summed element by element. -/
theorem ref_value (a b c : (⟨Cert.ReferenceIdeal.S262144x80, .f32⟩ : BufTy).Contents (Elt Ideal)) :
    val_main_v53 (F := Ideal) a b c ix0
      = lossOfElems reducesTo_S10_S_d0 h_S_ (fun i : Cert.ReferenceIdeal.S262144x80.Idx => vf (c i))
          (fun i => bin (a i) (b i)) (fun i => bce (a i) (b i)) := by
  rw [val_main_v53_apply, val_main_v52_apply, val_main_v51_apply, val_main_cst_16_apply, val_main_cst_15_apply, v4_eq,
    Finset.sum_congr rfl (fun j _ => v50_eq a b c j)]
  rfl

end Cert.Ghm.RefValue

end
-- ==== Proof.KBody.lean ====
/-
  The kernel body's two stored blocks, read entry by entry, at the ideal values.

  From a prediction tile x0, a target tile x1 and a label-weight tile x2 (each 4096 × 128) the body forms, element by element,
  the validity vf (x2 j), the bin  bin (x0 j) (x1 j)  and the weighted cross-entropy  bce (x0 j) (x1 j) · vf (x2 j);  for each
  bin k = 0 … 9 it sums, over the whole tile, the indicator of "the element's bin is k" times the validity (the bin's count)
  and times the weighted cross-entropy (the bin's sum); it lays the ten counts, and the ten sums, side by side in a row of
  ten, repeats the row over eight rows, and stores each 1 × 8 × 10 block whole. So entry (0, r, k) of the first block is

      ∑ j, ind k (bin (x0 j) (x1 j)) · vf (x2 j)

  and of the second block

      ∑ j, ind k (bin (x0 j) (x1 j)) · (bce (x0 j) (x1 j) · vf (x2 j)),

  whatever the row r. The steps: each elementwise stage read at an index; a whole-tile sum, taken after the tile is re-cast
  to 1 × 4096 × 128, is the sum over the tile's own indices (the re-cast is a bijection of index sets); a row of ten stacked
  from ten scalars reads its k-th scalar at k; the two blocks are assembled from these.
-/
import proofs.«179587_j1580547966503_2_alg».proof.Proof.Gen.KernelIdeal.Frame
import proofs.«179587_j1580547966503_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Ghm.KBody

open Cert.Ghm Idealize.ShloMosaic Idealize.ShloMosaic.ValueIdx
open Cert.KernelIdeal (S1x4096x128 S1 S1x1x1 S1x10 S8x10 S1x8x10)
open Cert.KernelIdeal.Gen

/-! ## One element -/

/-- A one-bit word widened to 32 bits and read as a signed integer is the bit itself. -/
theorem bit_toInt : ∀ b : BitVec 1, (b.setWidth 32).toInt = (b.toNat : ℤ) := by decide

/-- The same as extended reals: the signed reading of the widened bit and the unsigned reading of the bit agree. -/
theorem bit_real (b : BitVec 1) : ((((b.setWidth 32).toInt : ℤ) : ℝ) : EReal) = (((b.toNat : ℕ) : ℝ) : EReal) := by
  rw [bit_toInt]; norm_cast

/-- No extended real differs from itself. -/
theorem cmp_one_self (z : EReal) : Ideal.cmp .one z z = 0#1 := by
  unfold Ideal.cmp; simp

/-- The float literal of all-zero bits is the number 0. -/
theorem lit0_eq : lit0 = 0 := Ideal.ofBits_zero_f32

/-- A tile re-cast to its own shape is the tile. -/
theorem pay3_eq (x : Vec Ideal S4096x128 .f32) : k0_pay3 (F := Ideal) x = x := by
  unfold k0_pay3; exact shapeCast_self _ _

theorem pay4_eq (x : Vec Ideal S4096x128 .f32) : k0_pay4 (F := Ideal) x = x := by
  unfold k0_pay4; exact shapeCast_self _ _

/-- The validity tile at an element: 1 where the label weight is positive, else 0. -/
theorem pay5_apply (x2 : Vec Ideal S4096x128 .f32) (j : S4096x128.Idx) :
    k0_pay5 (F := Ideal) x2 j = vf (x2 j) := by
  unfold k0_pay5
  rw [shapeCast_self]
  exact bit_real _

/-- The bin tile at an element: floor (10 · |sigmoid x - y|), clamped to 0 … 9. -/
theorem pay6_apply (x0 x1 : Vec Ideal S4096x128 .f32) (j : S4096x128.Idx) :
    k0_pay6 (F := Ideal) x0 x1 j = bin (x0 j) (x1 j) := by
  unfold k0_pay6
  rw [pay3_eq, pay4_eq]
  rfl

/-- The weighted cross-entropy tile at an element. The body guards softplus by "x - 0 differs from itself", which never
    holds, so the guarded branch is never taken; and it writes 0 - |x - 0| where the specification has -(|x - 0|). -/
theorem pay7_apply (x0 x1 x2 : Vec Ideal S4096x128 .f32) (j : S4096x128.Idx) :
    k0_pay7 (F := Ideal) x0 x1 x2 j = bce (x0 j) (x1 j) * vf (x2 j) := by
  unfold k0_pay7
  rw [pay3_eq, pay4_eq]
  show (Scalar.select (Ideal.cmp .one (x0 j - lit0) (x0 j - lit0)) (x0 j + lit0)
      (max (x0 j) lit0 + Ideal.log1p (Ideal.exp (lit0 - max (x0 j - lit0) (-(x0 j - lit0))))) - x0 j * x1 j)
        * k0_pay5 (F := Ideal) x2 j = _
  rw [cmp_one_self, select_zero, pay5_apply]
  unfold bce softplus
  rw [show lit0 - max (x0 j - lit0) (-(x0 j - lit0)) = -(max (x0 j - lit0) (-(x0 j - lit0))) from by rw [lit0_eq, zero_sub]]

/-! ## A whole-tile sum -/

/-- The sum of a tile re-cast to 1 × 4096 × 128, reduced over both tile axes and read at its one entry, is the sum over
    the tile's own indices: into a shape of unit axes the reduction adds every entry, and the re-cast is a bijection
    between the two index sets. -/
theorem total_sum (v : FVec Ideal S4096x128 .f32) (h1 : S4096x128.ShapeCasts S1x4096x128) (hr : S1x4096x128.Reduces [1, 2] S1)
    (hφ : FKind.Formats .f32) (hacc : (0x00000000#32 : BitVec 32) = FKind.add.neutral .f32 hφ)
    (h2 : S1.ShapeCasts S1x1x1) (hp : ∀ a, (![0, 0, 0] : Fin 3 → Nat) a < S1x1x1.size a) :
    extractAt ![0, 0, 0] (shapeCast S1x1x1 (multiReduction .add [1, 2] S1 (shapeCast S1x4096x128 v h1) 0x00000000#32 hr hφ hacc) h2) hp
      = ∑ j : S4096x128.Idx, v j := by
  unfold extractAt
  show multiReduction .add [1, 2] S1 (shapeCast S1x4096x128 v h1) 0x00000000#32 hr hφ hacc _ = _
  rw [Ideal.multiReduction_add_total _ _ hr (fun b => by fin_cases b; rfl) hφ hacc]
  exact Equiv.sum_comp (Shape.reshapeEquiv h1) v

/-! ## A row of ten from ten scalars, repeated over eight rows -/

/-- Ten one-entry pieces laid end to end: entry k of the result is piece k's entry. -/
theorem concat10_apply {α : Type} (a0 a1 a2 a3 a4 a5 a6 a7 a8 a9 : α)
    (h : Shape.Concatenates [S1, S1, S1, S1, S1, S1, S1, S1, S1, S1] S10 0) (k : Fin 10) :
    concatenate S10 0 [⟨S1, broadcast S1 a0⟩, ⟨S1, broadcast S1 a1⟩, ⟨S1, broadcast S1 a2⟩, ⟨S1, broadcast S1 a3⟩,
      ⟨S1, broadcast S1 a4⟩, ⟨S1, broadcast S1 a5⟩, ⟨S1, broadcast S1 a6⟩, ⟨S1, broadcast S1 a7⟩, ⟨S1, broadcast S1 a8⟩,
      ⟨S1, broadcast S1 a9⟩] h (ix1 k) = ![a0, a1, a2, a3, a4, a5, a6, a7, a8, a9] k := by
  fin_cases k <;> rfl

/-- A 1 × 10 row re-cast to itself, repeated over eight rows and re-cast to 1 × 8 × 10, read at (0, r, k): the row's entry k. -/
theorem rows_apply {α : Type} (v : S1x10.Idx → α) (h2 : S1x10.ShapeCasts S1x10) (hb : S1x10.Broadcasts S8x10)
    (h3 : S8x10.ShapeCasts S1x8x10) (r : Fin 8) (k : Fin 10) :
    shapeCast S1x8x10 (broadcastTo S8x10 (shapeCast S1x10 v h2) hb) h3 (ix3 (0 : Fin 1) r k) = v (ix2 (0 : Fin 1) k) := by
  rw [shapeCast_ab_1ab_apply, broadcastTo_1b_ab_apply, shapeCast_self]

/-- Two rows of ten that differ in their last two entries only agree where those entries do. -/
theorem vec10_congr {α : Type} (a0 a1 a2 a3 a4 a5 a6 a7 e8 e9 s8 s9 : α) (h8 : e8 = s8) (h9 : e9 = s9) (k : Fin 10) :
    ![a0, a1, a2, a3, a4, a5, a6, a7, e8, e9] k = ![a0, a1, a2, a3, a4, a5, a6, a7, s8, s9] k := by
  rw [h8, h9]

/-- A row of ten whose entry i is a function's value at i, for each i, reads the function's value at k. -/
theorem vec10_eq {α : Type} (a : Fin 10 → α) (b0 b1 b2 b3 b4 b5 b6 b7 b8 b9 : α)
    (h0 : b0 = a 0) (h1 : b1 = a 1) (h2 : b2 = a 2) (h3 : b3 = a 3) (h4 : b4 = a 4) (h5 : b5 = a 5) (h6 : b6 = a 6)
    (h7 : b7 = a 7) (h8 : b8 = a 8) (h9 : b9 = a 9) (k : Fin 10) :
    ![b0, b1, b2, b3, b4, b5, b6, b7, b8, b9] k = a k := by
  subst h0 h1 h2 h3 h4 h5 h6 h7 h8 h9
  fin_cases k <;> rfl

/-- All-zero offsets, as the stores and loads spell them. -/
theorem zero3 : (![0, 0, 0] : Fin 3 → Nat) = fun _ => 0 := by funext a; fin_cases a <;> rfl
theorem zero2 : (![0, 0] : Fin 2 → Nat) = fun _ => 0 := by funext a; fin_cases a <;> rfl

/-! ## The counts' block

The ten scalars, over the validity tile v and the bin tile β as variables: each is the whole-tile sum of an indicator tile
times v, and the indicator tile at an element is `ind c (β j)` by definition. -/

theorem pay10_9_eq (x0 x1 x2 : Vec Ideal S4096x128 .f32) :
    k0_pay10 (F := Ideal) (k0_pay9 x0 x1 x2)
      = ∑ j : S4096x128.Idx, ind 0#32 (k0_pay6 (F := Ideal) x0 x1 j) * k0_pay5 (F := Ideal) x2 j := by
  unfold k0_pay10 k0_pay9; exact total_sum _ _ _ _ _ _ _
theorem pay13_eq (v : FVec Ideal S4096x128 .f32) (β : IVec S4096x128 32) :
    k0_pay13 (F := Ideal) v β = ∑ j : S4096x128.Idx, ind 1#32 (β j) * v j := by
  unfold k0_pay13; exact total_sum _ _ _ _ _ _ _
theorem pay16_eq (v : FVec Ideal S4096x128 .f32) (β : IVec S4096x128 32) :
    k0_pay16 (F := Ideal) v β = ∑ j : S4096x128.Idx, ind 2#32 (β j) * v j := by
  unfold k0_pay16; exact total_sum _ _ _ _ _ _ _
theorem pay19_eq (v : FVec Ideal S4096x128 .f32) (β : IVec S4096x128 32) :
    k0_pay19 (F := Ideal) v β = ∑ j : S4096x128.Idx, ind 3#32 (β j) * v j := by
  unfold k0_pay19; exact total_sum _ _ _ _ _ _ _
theorem pay22_eq (v : FVec Ideal S4096x128 .f32) (β : IVec S4096x128 32) (c : BitVec 32) :
    k0_pay22 (F := Ideal) v β c = ∑ j : S4096x128.Idx, ind c (β j) * v j := by
  unfold k0_pay22; exact total_sum _ _ _ _ _ _ _
theorem pay25_eq (v : FVec Ideal S4096x128 .f32) (β : IVec S4096x128 32) :
    k0_pay25 (F := Ideal) v β = ∑ j : S4096x128.Idx, ind 5#32 (β j) * v j := by
  unfold k0_pay25; exact total_sum _ _ _ _ _ _ _
theorem pay28_eq (v : FVec Ideal S4096x128 .f32) (β : IVec S4096x128 32) :
    k0_pay28 (F := Ideal) v β = ∑ j : S4096x128.Idx, ind 6#32 (β j) * v j := by
  unfold k0_pay28; exact total_sum _ _ _ _ _ _ _
theorem pay31_eq (v : FVec Ideal S4096x128 .f32) (β : IVec S4096x128 32)
    (hp : ∀ a, (![0, 0, 0] : Fin 3 → Nat) a < S1x1x1.size a) :
    extractAt ![0, 0, 0] (k0_pay31 (F := Ideal) v β) hp = ∑ j : S4096x128.Idx, ind 7#32 (β j) * v j := by
  unfold k0_pay31; exact total_sum _ _ _ _ _ _ _

/-- The counts' row before it is repeated over the eight rows: seven scalars it is given, the eighth read off a one-entry
    block, the last two summed in place. -/
theorem pay37_apply (v : FVec Ideal S4096x128 .f32) (β : IVec S4096x128 32) (a0 a1 a2 a3 a4 a5 a6 : EReal)
    (t : FVec Ideal S1x1x1 .f32) (k : Fin 10) :
    k0_pay37 (F := Ideal) v β a0 a1 a2 a3 a4 a5 a6 t (ix2 (0 : Fin 1) k)
      = ![a0, a1, a2, a3, a4, a5, a6, extractAt ![0, 0, 0] t (by decide),
          ∑ j : S4096x128.Idx, ind 8#32 (β j) * v j, ∑ j : S4096x128.Idx, ind 9#32 (β j) * v j] k := by
  unfold k0_pay37
  refine (shapeCast_a_1a_apply _ _ _ _).trans ?_
  refine (concat10_apply _ _ _ _ _ _ _ _ _ _ _ k).trans ?_
  exact vec10_congr _ _ _ _ _ _ _ _ _ _ _ _ (total_sum _ _ _ _ _ _ _) (total_sum _ _ _ _ _ _ _) k

/-- The counts' block at (0, r, k) is the row's entry k. -/
theorem pay1_apply (v : FVec Ideal S1x10 .f32) (r : Fin 8) (k : Fin 10) :
    k0_pay1 (F := Ideal) v (ix3 (0 : Fin 1) r k) = v (ix2 (0 : Fin 1) k) := by
  unfold k0_pay1; exact rows_apply v _ _ _ r k

/-- A bin's count over the body's tiles is its count over the elements' own values. -/
theorem cnt_eq (x0 x1 x2 : Vec Ideal S4096x128 .f32) (c : BitVec 32) :
    ∑ j : S4096x128.Idx, ind c (k0_pay6 (F := Ideal) x0 x1 j) * k0_pay5 (F := Ideal) x2 j
      = ∑ j : S4096x128.Idx, ind c (bin (x0 j) (x1 j)) * vf (x2 j) :=
  Finset.sum_congr rfl fun j _ => by rw [pay6_apply, pay5_apply]

/-- One store of the whole block leaves its payload, and a load of a whole input block reads the block. -/
theorem out3_strip (x0 x1 x2 : Vec Ideal Cert.KernelIdeal.S4096x128 .f32) :
    Cert.KernelIdeal.Gen.out0_3 (F := Ideal) x0 x1 x2
      = k0_pay1 (k0_pay37 (k0_pay5 x2) (k0_pay6 x0 x1) (k0_pay10 (k0_pay9 x0 x1 x2)) (k0_pay13 (k0_pay5 x2) (k0_pay6 x0 x1))
          (k0_pay16 (k0_pay5 x2) (k0_pay6 x0 x1)) (k0_pay19 (k0_pay5 x2) (k0_pay6 x0 x1)) (k0_pay22 (k0_pay5 x2) (k0_pay6 x0 x1) 4#32)
          (k0_pay25 (k0_pay5 x2) (k0_pay6 x0 x1)) (k0_pay28 (k0_pay5 x2) (k0_pay6 x0 x1)) (k0_pay31 (k0_pay5 x2) (k0_pay6 x0 x1))) := by
  unfold Cert.KernelIdeal.Gen.out0_3
  rw [View.canon_unit_zero zero3, View.ld_unit_zero zero2, View.ld_unit_zero zero2, View.ld_unit_zero zero2]

/-- **The counts' block**: entry (0, r, k) is bin k's count over the tile. -/
theorem out3_apply (x0 x1 x2 : Vec Ideal Cert.KernelIdeal.S4096x128 .f32) (r : Fin 8) (k : Fin 10) :
    Cert.KernelIdeal.Gen.out0_3 (F := Ideal) x0 x1 x2 (ix3 (0 : Fin 1) r k)
      = ∑ j : Cert.KernelIdeal.S4096x128.Idx, ind (BitVec.ofNat 32 k.val) (bin (x0 j) (x1 j)) * vf (x2 j) := by
  rw [out3_strip, pay1_apply, pay37_apply, pay10_9_eq, pay13_eq, pay16_eq, pay19_eq, pay22_eq, pay25_eq, pay28_eq, pay31_eq]
  exact vec10_eq (fun k : Fin 10 => ∑ j : S4096x128.Idx, ind (BitVec.ofNat 32 k.val) (bin (x0 j) (x1 j)) * vf (x2 j))
    _ _ _ _ _ _ _ _ _ _
    (cnt_eq x0 x1 x2 _) (cnt_eq x0 x1 x2 _) (cnt_eq x0 x1 x2 _) (cnt_eq x0 x1 x2 _) (cnt_eq x0 x1 x2 _)
    (cnt_eq x0 x1 x2 _) (cnt_eq x0 x1 x2 _) (cnt_eq x0 x1 x2 _) (cnt_eq x0 x1 x2 _) (cnt_eq x0 x1 x2 _) k

/-! ## The sums' block

The ten scalars, over the weighted cross-entropy tile w and the bin tile β (or, for bins 0 and 7, the indicator tile m) as
variables. -/

theorem pay11_eq (w m : FVec Ideal S4096x128 .f32) :
    k0_pay11 (F := Ideal) w m = ∑ j : S4096x128.Idx, m j * w j := by
  unfold k0_pay11; exact total_sum _ _ _ _ _ _ _
theorem pay14_eq (β : IVec S4096x128 32) (w : FVec Ideal S4096x128 .f32) :
    k0_pay14 (F := Ideal) β w = ∑ j : S4096x128.Idx, ind 1#32 (β j) * w j := by
  unfold k0_pay14; exact total_sum _ _ _ _ _ _ _
theorem pay17_eq (β : IVec S4096x128 32) (w : FVec Ideal S4096x128 .f32) :
    k0_pay17 (F := Ideal) β w = ∑ j : S4096x128.Idx, ind 2#32 (β j) * w j := by
  unfold k0_pay17; exact total_sum _ _ _ _ _ _ _
theorem pay20_eq (β : IVec S4096x128 32) (w : FVec Ideal S4096x128 .f32) :
    k0_pay20 (F := Ideal) β w = ∑ j : S4096x128.Idx, ind 3#32 (β j) * w j := by
  unfold k0_pay20; exact total_sum _ _ _ _ _ _ _
theorem pay23_eq (β : IVec S4096x128 32) (w : FVec Ideal S4096x128 .f32) (c : BitVec 32) :
    k0_pay23 (F := Ideal) β w c = ∑ j : S4096x128.Idx, ind c (β j) * w j := by
  unfold k0_pay23; exact total_sum _ _ _ _ _ _ _
theorem pay26_eq (β : IVec S4096x128 32) (w : FVec Ideal S4096x128 .f32) :
    k0_pay26 (F := Ideal) β w = ∑ j : S4096x128.Idx, ind 5#32 (β j) * w j := by
  unfold k0_pay26; exact total_sum _ _ _ _ _ _ _
theorem pay29_eq (β : IVec S4096x128 32) (w : FVec Ideal S4096x128 .f32) :
    k0_pay29 (F := Ideal) β w = ∑ j : S4096x128.Idx, ind 6#32 (β j) * w j := by
  unfold k0_pay29; exact total_sum _ _ _ _ _ _ _
theorem pay32_eq (w m : FVec Ideal S4096x128 .f32) :
    k0_pay32 (F := Ideal) w m = ∑ j : S4096x128.Idx, m j * w j := by
  unfold k0_pay32; exact total_sum _ _ _ _ _ _ _
theorem pay34_eq (β : IVec S4096x128 32) (w : FVec Ideal S4096x128 .f32) :
    k0_pay34 (F := Ideal) β w = ∑ j : S4096x128.Idx, ind 8#32 (β j) * w j := by
  unfold k0_pay34; exact total_sum _ _ _ _ _ _ _
theorem pay36_eq (β : IVec S4096x128 32) (w : FVec Ideal S4096x128 .f32) :
    k0_pay36 (F := Ideal) β w = ∑ j : S4096x128.Idx, ind 9#32 (β j) * w j := by
  unfold k0_pay36; exact total_sum _ _ _ _ _ _ _

/-- The sums' block: entry (0, r, k) is the k-th of the ten scalars it stacks (those of bins 7, 8, 9 come first among its
    arguments, those of bins 0 … 6 already as one-entry pieces). -/
theorem pay2_apply (a7 a8 a9 a0 a1 a2 a3 a4 a5 a6 : EReal) (r : Fin 8) (k : Fin 10) :
    k0_pay2 (F := Ideal) a7 a8 a9 (k0_pay38 a0) (k0_pay39 a1) (k0_pay40 a2) (k0_pay41 a3) (k0_pay42 a4) (k0_pay43 a5) (k0_pay44 a6)
      (ix3 (0 : Fin 1) r k) = ![a0, a1, a2, a3, a4, a5, a6, a7, a8, a9] k := by
  unfold k0_pay2 k0_pay38 k0_pay39 k0_pay40 k0_pay41 k0_pay42 k0_pay43 k0_pay44
  refine (rows_apply _ _ _ _ r k).trans ?_
  refine (shapeCast_a_1a_apply _ _ _ _).trans ?_
  exact concat10_apply _ _ _ _ _ _ _ _ _ _ _ k

/-- A bin's sum over the body's tiles is its sum over the elements' own values. -/
theorem sm_eq (x0 x1 x2 : Vec Ideal S4096x128 .f32) (c : BitVec 32) :
    ∑ j : S4096x128.Idx, ind c (k0_pay6 (F := Ideal) x0 x1 j) * k0_pay7 (F := Ideal) x0 x1 x2 j
      = ∑ j : S4096x128.Idx, ind c (bin (x0 j) (x1 j)) * (bce (x0 j) (x1 j) * vf (x2 j)) :=
  Finset.sum_congr rfl fun j _ => by rw [pay6_apply, pay7_apply]

/-- One store of the whole block leaves its payload, and a load of a whole input block reads the block. -/
theorem out4_strip (x0 x1 x2 : Vec Ideal Cert.KernelIdeal.S4096x128 .f32) :
    Cert.KernelIdeal.Gen.out0_4 (F := Ideal) x0 x1 x2
      = k0_pay2 (k0_pay32 (k0_pay7 x0 x1 x2) (k0_pay30 (F := Ideal) (k0_pay6 x0 x1))) (k0_pay34 (k0_pay6 x0 x1) (k0_pay7 x0 x1 x2))
          (k0_pay36 (k0_pay6 x0 x1) (k0_pay7 x0 x1 x2)) (k0_pay38 (k0_pay11 (k0_pay7 x0 x1 x2) (k0_pay8 x0 x1)))
          (k0_pay39 (k0_pay14 (k0_pay6 x0 x1) (k0_pay7 x0 x1 x2))) (k0_pay40 (k0_pay17 (k0_pay6 x0 x1) (k0_pay7 x0 x1 x2)))
          (k0_pay41 (k0_pay20 (k0_pay6 x0 x1) (k0_pay7 x0 x1 x2))) (k0_pay42 (k0_pay23 (k0_pay6 x0 x1) (k0_pay7 x0 x1 x2) 4#32))
          (k0_pay43 (k0_pay26 (k0_pay6 x0 x1) (k0_pay7 x0 x1 x2))) (k0_pay44 (k0_pay29 (k0_pay6 x0 x1) (k0_pay7 x0 x1 x2))) := by
  unfold Cert.KernelIdeal.Gen.out0_4
  rw [View.canon_unit_zero zero3, View.ld_unit_zero zero2, View.ld_unit_zero zero2, View.ld_unit_zero zero2]

/-- **The sums' block**: entry (0, r, k) is bin k's sum of weighted cross-entropies over the tile. -/
theorem out4_apply (x0 x1 x2 : Vec Ideal Cert.KernelIdeal.S4096x128 .f32) (r : Fin 8) (k : Fin 10) :
    Cert.KernelIdeal.Gen.out0_4 (F := Ideal) x0 x1 x2 (ix3 (0 : Fin 1) r k)
      = ∑ j : Cert.KernelIdeal.S4096x128.Idx, ind (BitVec.ofNat 32 k.val) (bin (x0 j) (x1 j)) * (bce (x0 j) (x1 j) * vf (x2 j)) := by
  rw [out4_strip, pay2_apply, pay11_eq, pay14_eq, pay17_eq, pay20_eq, pay23_eq, pay26_eq, pay29_eq, pay32_eq, pay34_eq, pay36_eq]
  exact vec10_eq (fun k : Fin 10 => ∑ j : S4096x128.Idx, ind (BitVec.ofNat 32 k.val) (bin (x0 j) (x1 j)) * (bce (x0 j) (x1 j) * vf (x2 j)))
    _ _ _ _ _ _ _ _ _ _
    (sm_eq x0 x1 x2 _) (sm_eq x0 x1 x2 _) (sm_eq x0 x1 x2 _) (sm_eq x0 x1 x2 _) (sm_eq x0 x1 x2 _)
    (sm_eq x0 x1 x2 _) (sm_eq x0 x1 x2 _) (sm_eq x0 x1 x2 _) (sm_eq x0 x1 x2 _) (sm_eq x0 x1 x2 _) k

end Cert.Ghm.KBody

end
-- ==== Proof.KArrays.lean ====
/-
  From blocks to arrays, for the one pipelined call of the idealized kernel.

  The three argument arrays, of shape [262144, 80], are re-laid row-major as [163840, 128] before the call, and the call
  walks 40 grid points; point t reads, of each re-laid array, the tile of rows t · 4096 … t · 4096 + 4095 (all 128 lanes),
  and writes one [1, 8, 10] block, at row-block t, of each of the two [40, 8, 10] result arrays.

  Inputs. Row t · 4096 + p, lane q of a re-laid array is the element at row-major position
  (t · 4096 + p) · 128 + q = t · 524288 + p · 128 + q, which in the [262144, 80] argument is the entry at
  (that position / 80, that position mod 80): `lin t (p, q)`. So the tile an input window holds at point t, read at
  (p, q), is the argument read at `lin t (p, q)` (`iblk0_apply`, `iblk1_apply`, `iblk2_apply`).

  Outputs. What the body leaves in an output window at point t is a function of the three input tiles at t alone; the
  block is written back at row-block t, blocks of different points are disjoint and together they fill the array. So each
  result array ends as ONE function of its index (`G3`, `G4`): at (t, r, k), the body's block from the tiles at point t,
  read at (0, r, k) (`final3`, `final4`).
-/
import proofs.«179587_j1580547966503_2_alg».proof.Proof.Gen.KernelIdeal.Frame
import proofs.«179587_j1580547966503_2_alg».proof.Proof.Spec
import Idealize.ShloMosaic.Lib.Pipeline.Value

noncomputable section

open Cert.KernelIdeal Cert.KernelIdeal.Gen Cert.Ghm Idealize.ShloMosaic Idealize.ShloMosaic.ValueIdx
open Idealize.ShloMosaic.TcCoe Idealize.SL.Sem
open Idealize.ShloMosaic.Pipeline (Dat)

namespace Cert.Ghm.KArrays

/-! ## The index maps over the grid -/

/-- At point t every input window's block index is (t, 0) and every output window's is (t, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## An input tile read off a [163840, 128] array -/

/-- A tile of window 0 read at an index is the array at the index's place in the array. -/
theorem read_blk0 (A : S163840x128.Idx → EReal) (t : Fin cfg0.N) (j : S4096x128.Idx) :
    ((cfg0.win 0).blk t).view.read (Elt Ideal) A j = A (((cfg0.win 0).blk t).view.emb j) := by
  rw [View.read_apply]
  rfl

theorem read_blk1 (A : S163840x128.Idx → EReal) (t : Fin cfg0.N) (j : S4096x128.Idx) :
    ((cfg0.win 1).blk t).view.read (Elt Ideal) A j = A (((cfg0.win 1).blk t).view.emb j) := by
  rw [View.read_apply]
  rfl

theorem read_blk2 (A : S163840x128.Idx → EReal) (t : Fin cfg0.N) (j : S4096x128.Idx) :
    ((cfg0.win 2).blk t).view.read (Elt Ideal) A j = A (((cfg0.win 2).blk t).view.emb j) := by
  rw [View.read_apply]
  rfl

/-- That place: row t · 4096 + (the row inside the tile), the same lane. -/
theorem emb_blk0 (t : Fin cfg0.N) (j : S4096x128.Idx) (k : S163840x128.Idx)
    (hk0 : (k 0).val = t.val * 4096 + (j 0).val) (hk1 : (k 1).val = (j 1).val) :
    ((cfg0.win 0).blk t).view.emb j = k := by
  obtain ⟨e0, e1, -⟩ := idx_facts t
  funext a
  apply Fin.ext
  match a with
  | ⟨0, _⟩ => show win0_0.index t (0 : Fin 2) * 4096 + 1 * (j 0).val = (k 0).val; rw [e0, hk0]; omega
  | ⟨1, _⟩ => show win0_0.index t (1 : Fin 2) * 128 + 1 * (j 1).val = (k 1).val; rw [e1, hk1]; omega

theorem emb_blk1 (t : Fin cfg0.N) (j : S4096x128.Idx) (k : S163840x128.Idx)
    (hk0 : (k 0).val = t.val * 4096 + (j 0).val) (hk1 : (k 1).val = (j 1).val) :
    ((cfg0.win 1).blk t).view.emb j = k := by
  obtain ⟨-, -, e0, e1, -⟩ := idx_facts t
  funext a
  apply Fin.ext
  match a with
  | ⟨0, _⟩ => show win0_1.index t (0 : Fin 2) * 4096 + 1 * (j 0).val = (k 0).val; rw [e0, hk0]; omega
  | ⟨1, _⟩ => show win0_1.index t (1 : Fin 2) * 128 + 1 * (j 1).val = (k 1).val; rw [e1, hk1]; omega

theorem emb_blk2 (t : Fin cfg0.N) (j : S4096x128.Idx) (k : S163840x128.Idx)
    (hk0 : (k 0).val = t.val * 4096 + (j 0).val) (hk1 : (k 1).val = (j 1).val) :
    ((cfg0.win 2).blk t).view.emb j = k := by
  obtain ⟨-, -, -, -, e0, e1, -⟩ := idx_facts t
  funext a
  apply Fin.ext
  match a with
  | ⟨0, _⟩ => show win0_2.index t (0 : Fin 2) * 4096 + 1 * (j 0).val = (k 0).val; rw [e0, hk0]; omega
  | ⟨1, _⟩ => show win0_2.index t (1 : Fin 2) * 128 + 1 * (j 1).val = (k 1).val; rw [e1, hk1]; omega

/-- The row-major re-laying of a [262144, 80] array as [163840, 128], read at row t · 4096 + p, lane q: both positions are
    t · 524288 + p · 128 + q in row-major order, and (x / 80) · 80 + x mod 80 = x. -/
theorem relaid_apply (A : S262144x80.Idx → EReal) (h : S262144x80.ShapeCasts S163840x128) (t : Fin 40) (j : S4096x128.Idx)
    (k : S163840x128.Idx) (hk0 : (k 0).val = t.val * 4096 + (j 0).val) (hk1 : (k 1).val = (j 1).val) :
    shapeCast S163840x128 A h k = A (lin t j) := by
  refine shapeCast_apply A h k (lin t j) ?_
  rw [Shape.rowMajor_val_two, Shape.rowMajor_val_two]
  have h0 := idx2_lt0 j; have h1 := idx2_lt1 j; have := t.isLt
  show ((t.val * 524288 + (j 0).val * 128 + (j 1).val) / 80) * 80 + (t.val * 524288 + (j 0).val * 128 + (j 1).val) % 80
    = (k 0).val * 128 + (k 1).val
  rw [hk0, hk1]
  omega

variable (m : (ℓ : Loc nD τ sig) → Buf (Elt Ideal) ℓ)

/-! ## The arrays the call reads are the re-laid arguments -/

theorem V_v0 (c : Dev nD) : (V m c main_v0 : S163840x128.Idx → EReal)
    = shapeCast S163840x128 (m ((c.tc : Thread nD τ).loc main_arg0) : S262144x80.Idx → EReal) Facts₀.shapeCasts_S262144x80_S163840x128 := by
  show StableHlo.after hostOps0 (fun b => m (c, b)) (Proc.devRef .tc main_v0) = _
  after_results
  rfl

theorem V_v1 (c : Dev nD) : (V m c main_v1 : S163840x128.Idx → EReal)
    = shapeCast S163840x128 (m ((c.tc : Thread nD τ).loc main_arg1) : S262144x80.Idx → EReal) Facts₀.shapeCasts_S262144x80_S163840x128 := by
  show StableHlo.after hostOps0 (fun b => m (c, b)) (Proc.devRef .tc main_v1) = _
  after_results
  rfl

theorem V_v2 (c : Dev nD) : (V m c main_v2 : S163840x128.Idx → EReal)
    = shapeCast S163840x128 (m ((c.tc : Thread nD τ).loc main_arg2) : S262144x80.Idx → EReal) Facts₀.shapeCasts_S262144x80_S163840x128 := by
  show StableHlo.after hostOps0 (fun b => m (c, b)) (Proc.devRef .tc main_v2) = _
  after_results
  rfl

/-! ## An input tile's entry is the argument's entry at the re-laid position -/

/-- Window 0 holds, at point t and tile position j, the first argument's entry at `lin t j`. -/
theorem iblk0_apply (c : Dev nD) (t : Fin 40) (j : S4096x128.Idx) :
    iblk (F := Ideal) m c 0 (t.cast N_0.symm) j = m ((c.tc : Thread nD τ).loc main_arg0) (lin t j) := by
  have hA : V m c (Pipeline.arrRef spec0 0) = shapeCast S163840x128 (m ((c.tc : Thread nD τ).loc main_arg0) : S262144x80.Idx → EReal) Facts₀.shapeCasts_S262144x80_S163840x128 := V_v0 m c
  have hk := emb_blk0 (t.cast N_0.symm) j (ix2 ⟨t.val * 4096 + (j 0).val, by have := idx2_lt0 j; have := t.isLt; omega⟩ (j 1)) rfl rfl
  unfold iblk
  rw [hA]
  refine (read_blk0 _ _ j).trans ?_
  exact relaid_apply _ _ t j _ (by rw [hk]) (by rw [hk])

/-- Window 1 holds, at point t and tile position j, the second argument's entry at `lin t j`. -/
theorem iblk1_apply (c : Dev nD) (t : Fin 40) (j : S4096x128.Idx) :
    iblk (F := Ideal) m c 1 (t.cast N_0.symm) j = m ((c.tc : Thread nD τ).loc main_arg1) (lin t j) := by
  have hA : V m c (Pipeline.arrRef spec0 1) = shapeCast S163840x128 (m ((c.tc : Thread nD τ).loc main_arg1) : S262144x80.Idx → EReal) Facts₀.shapeCasts_S262144x80_S163840x128 := V_v1 m c
  have hk := emb_blk1 (t.cast N_0.symm) j (ix2 ⟨t.val * 4096 + (j 0).val, by have := idx2_lt0 j; have := t.isLt; omega⟩ (j 1)) rfl rfl
  unfold iblk
  rw [hA]
  refine (read_blk1 _ _ j).trans ?_
  exact relaid_apply _ _ t j _ (by rw [hk]) (by rw [hk])

/-- Window 2 holds, at point t and tile position j, the third argument's entry at `lin t j`. -/
theorem iblk2_apply (c : Dev nD) (t : Fin 40) (j : S4096x128.Idx) :
    iblk (F := Ideal) m c 2 (t.cast N_0.symm) j = m ((c.tc : Thread nD τ).loc main_arg2) (lin t j) := by
  have hA : V m c (Pipeline.arrRef spec0 2) = shapeCast S163840x128 (m ((c.tc : Thread nD τ).loc main_arg2) : S262144x80.Idx → EReal) Facts₀.shapeCasts_S262144x80_S163840x128 := V_v2 m c
  have hk := emb_blk2 (t.cast N_0.symm) j (ix2 ⟨t.val * 4096 + (j 0).val, by have := idx2_lt0 j; have := t.isLt; omega⟩ (j 1)) rfl rfl
  unfold iblk
  rw [hA]
  refine (read_blk2 _ _ j).trans ?_
  exact relaid_apply _ _ t j _ (by rw [hk]) (by rw [hk])

/-! ## The two result arrays as functions of their index -/

/-- The first result array after the run: at (t, r, k), the body's first output block from the three input tiles at
    point t, read at (0, r, k). -/
def G3 (c : Dev nD) : S40x8x10.Idx → EReal := fun y =>
  out0_3 (iblk m c 0 (Fin.cast N_0.symm (y 0))) (iblk m c 1 (Fin.cast N_0.symm (y 0))) (iblk m c 2 (Fin.cast N_0.symm (y 0)))
    (ix3 (0 : Fin 1) (y 1) (y 2))

/-- The second result array after the run, likewise from the body's second output block. -/
def G4 (c : Dev nD) : S40x8x10.Idx → EReal := fun y =>
  out0_4 (iblk m c 0 (Fin.cast N_0.symm (y 0))) (iblk m c 1 (Fin.cast N_0.symm (y 0))) (iblk m c 2 (Fin.cast N_0.symm (y 0)))
    (ix3 (0 : Fin 1) (y 1) (y 2))

theorem G3_apply (c : Dev nD) (t : Fin 40) (r : Fin 8) (k : Fin 10) :
    G3 m c (ix3 t r k) = out0_3 (iblk m c 0 (t.cast N_0.symm)) (iblk m c 1 (t.cast N_0.symm)) (iblk m c 2 (t.cast N_0.symm)) (ix3 (0 : Fin 1) r k) := rfl

theorem G4_apply (c : Dev nD) (t : Fin 40) (r : Fin 8) (k : Fin 10) :
    G4 m c (ix3 t r k) = out0_4 (iblk m c 0 (t.cast N_0.symm)) (iblk m c 1 (t.cast N_0.symm)) (iblk m c 2 (t.cast N_0.symm)) (ix3 (0 : Fin 1) r k) := rfl

/-- At an index whose first coordinate is the point t, the function reads point t's block. -/
theorem G3_of (c : Dev nD) (t : Fin cfg0.N) (i : S40x8x10.Idx) (h : (i 0).val = t.val) :
    G3 m c i = out0_3 (iblk m c 0 t) (iblk m c 1 t) (iblk m c 2 t) (ix3 (0 : Fin 1) (i 1) (i 2)) := by
  obtain rfl : t = Fin.cast N_0.symm (i 0) := Fin.ext h.symm
  rfl

theorem G4_of (c : Dev nD) (t : Fin cfg0.N) (i : S40x8x10.Idx) (h : (i 0).val = t.val) :
    G4 m c i = out0_4 (iblk m c 0 t) (iblk m c 1 t) (iblk m c 2 t) (ix3 (0 : Fin 1) (i 1) (i 2)) := by
  obtain rfl : t = Fin.cast N_0.symm (i 0) := Fin.ext h.symm
  rfl

/-! ## An output block inside its [40, 8, 10] array -/

theorem read_blk3 (A : S40x8x10.Idx → EReal) (t : Fin cfg0.N) (y : S1x8x10.Idx) :
    ((cfg0.win 3).blk t).view.read (Elt Ideal) A y = A (((cfg0.win 3).blk t).view.emb y) := by
  rw [View.read_apply]
  rfl

theorem read_blk4 (A : S40x8x10.Idx → EReal) (t : Fin cfg0.N) (y : S1x8x10.Idx) :
    ((cfg0.win 4).blk t).view.read (Elt Ideal) A y = A (((cfg0.win 4).blk t).view.emb y) := by
  rw [View.read_apply]
  rfl

/-- Position (0, r, k) of point t's block is position (t, r, k) of the array. -/
theorem emb_blk3 (t : Fin cfg0.N) (y : S1x8x10.Idx) (k : S40x8x10.Idx)
    (hk0 : (k 0).val = t.val) (hk1 : (k 1).val = (y 1).val) (hk2 : (k 2).val = (y 2).val) :
    ((cfg0.win 3).blk t).view.emb y = k := by
  obtain ⟨-, -, -, -, -, -, e0, e1, e2, -⟩ := idx_facts t
  funext a
  apply Fin.ext
  match a with
  | ⟨0, _⟩ => show win0_3.index t (0 : Fin 3) * 1 + 1 * (y 0).val = (k 0).val; rw [e0, hk0]; have : (y 0).val < 1 := (y 0).isLt; omega
  | ⟨1, _⟩ => show win0_3.index t (1 : Fin 3) * 8 + 1 * (y 1).val = (k 1).val; rw [e1, hk1]; omega
  | ⟨2, _⟩ => show win0_3.index t (2 : Fin 3) * 10 + 1 * (y 2).val = (k 2).val; rw [e2, hk2]; omega

theorem emb_blk4 (t : Fin cfg0.N) (y : S1x8x10.Idx) (k : S40x8x10.Idx)
    (hk0 : (k 0).val = t.val) (hk1 : (k 1).val = (y 1).val) (hk2 : (k 2).val = (y 2).val) :
    ((cfg0.win 4).blk t).view.emb y = k := by
  obtain ⟨-, -, -, -, -, -, -, -, -, e0, e1, e2⟩ := idx_facts t
  funext a
  apply Fin.ext
  match a with
  | ⟨0, _⟩ => show win0_4.index t (0 : Fin 3) * 1 + 1 * (y 0).val = (k 0).val; rw [e0, hk0]; have : (y 0).val < 1 := (y 0).isLt; omega
  | ⟨1, _⟩ => show win0_4.index t (1 : Fin 3) * 8 + 1 * (y 1).val = (k 1).val; rw [e1, hk1]; omega
  | ⟨2, _⟩ => show win0_4.index t (2 : Fin 3) * 10 + 1 * (y 2).val = (k 2).val; rw [e2, hk2]; omega

/-- The whole block is written back: the part moved is the block itself (its first coordinate can only be 0). -/
theorem cut3_apply (X : S1x8x10.Idx → EReal) (t : Fin cfg0.N) (y : S1x8x10.Idx) :
    (cfg0.win 3).cut (grid0.coords t) X y = X (ix3 (0 : Fin 1) (y 1) (y 2)) := by
  show X _ = X _
  refine congrArg X (funext fun a => Fin.ext ?_)
  match a with
  | ⟨0, _⟩ => show (y 0).val = 0; have : (y 0).val < 1 := (y 0).isLt; omega
  | ⟨1, _⟩ => rfl
  | ⟨2, _⟩ => rfl

theorem cut4_apply (X : S1x8x10.Idx → EReal) (t : Fin cfg0.N) (y : S1x8x10.Idx) :
    (cfg0.win 4).cut (grid0.coords t) X y = X (ix3 (0 : Fin 1) (y 1) (y 2)) := by
  show X _ = X _
  refine congrArg X (funext fun a => Fin.ext ?_)
  match a with
  | ⟨0, _⟩ => show (y 0).val = 0; have : (y 0).val < 1 := (y 0).isLt; omega
  | ⟨1, _⟩ => rfl
  | ⟨2, _⟩ => rfl

/-! ## What each point writes back is its block of the one function -/

theorem flushed3_eq (c : Dev nD) (t : Fin cfg0.N) :
    (dats (F := Ideal) m 0 c).flushed 3 t = ((cfg0.win 3).blk t).view.read (Elt Ideal) (G3 m c) := by
  show (cfg0.win 3).cut (grid0.coords t) ((dats m 0 c).after 3 t) = _
  rw [after0_3]
  refine funext fun (y : S1x8x10.Idx) => ?_
  refine Eq.trans ?_ (read_blk3 (G3 m c) t y).symm
  rw [emb_blk3 t y (ix3 (Fin.cast N_0 t) (y 1) (y 2)) rfl rfl rfl, G3_of m c t _ rfl]
  exact cut3_apply _ t y

theorem flushed4_eq (c : Dev nD) (t : Fin cfg0.N) :
    (dats (F := Ideal) m 0 c).flushed 4 t = ((cfg0.win 4).blk t).view.read (Elt Ideal) (G4 m c) := by
  show (cfg0.win 4).cut (grid0.coords t) ((dats m 0 c).after 4 t) = _
  rw [after0_4]
  refine funext fun (y : S1x8x10.Idx) => ?_
  refine Eq.trans ?_ (read_blk4 (G4 m c) t y).symm
  rw [emb_blk4 t y (ix3 (Fin.cast N_0 t) (y 1) (y 2)) rfl rfl rfl, G4_of m c t _ rfl]
  exact cut4_apply _ t y

/-! ## The blocks fill the arrays -/

/-- Every index (t, r, k) of the first result array lies in point t's block. -/
theorem cover3 (i : S40x8x10.Idx) :
    ∃ t : Fin cfg0.N, (cfg0.win 3).flush t = true ∧ i ∈ ((cfg0.win 3).blk t).view.set := by
  refine ⟨Fin.cast N_0.symm (i 0), flush0_3 _, ?_⟩
  obtain ⟨-, -, -, -, -, -, e0, e1, e2, -⟩ := idx_facts (Fin.cast N_0.symm (i 0))
  show i ∈ ((View.whole main_v3_0).slice (win0_3.rect (Fin.cast N_0.symm (i 0)))).set
  rw [View.set_slice_whole, Rect.mem_set_unit]
  intro a
  have h1 : (i 1).val < 8 := (i 1).isLt
  have h2 : (i 2).val < 10 := (i 2).isLt
  match a with
  | ⟨0, _⟩ => show win0_3.index (Fin.cast N_0.symm (i 0)) (0 : Fin 3) * 1 ≤ (i 0).val ∧ (i 0).val < win0_3.index (Fin.cast N_0.symm (i 0)) (0 : Fin 3) * 1 + 1
              rw [e0]; show (i 0).val * 1 ≤ (i 0).val ∧ (i 0).val < (i 0).val * 1 + 1; omega
  | ⟨1, _⟩ => show win0_3.index (Fin.cast N_0.symm (i 0)) (1 : Fin 3) * 8 ≤ (i 1).val ∧ (i 1).val < win0_3.index (Fin.cast N_0.symm (i 0)) (1 : Fin 3) * 8 + 8
              rw [e1]; omega
  | ⟨2, _⟩ => show win0_3.index (Fin.cast N_0.symm (i 0)) (2 : Fin 3) * 10 ≤ (i 2).val ∧ (i 2).val < win0_3.index (Fin.cast N_0.symm (i 0)) (2 : Fin 3) * 10 + 10
              rw [e2]; omega

/-- Every index (t, r, k) of the second result array lies in point t's block. -/
theorem cover4 (i : S40x8x10.Idx) :
    ∃ t : Fin cfg0.N, (cfg0.win 4).flush t = true ∧ i ∈ ((cfg0.win 4).blk t).view.set := by
  refine ⟨Fin.cast N_0.symm (i 0), flush0_4 _, ?_⟩
  obtain ⟨-, -, -, -, -, -, -, -, -, e0, e1, e2⟩ := idx_facts (Fin.cast N_0.symm (i 0))
  show i ∈ ((View.whole main_v3_1).slice (win0_4.rect (Fin.cast N_0.symm (i 0)))).set
  rw [View.set_slice_whole, Rect.mem_set_unit]
  intro a
  have h1 : (i 1).val < 8 := (i 1).isLt
  have h2 : (i 2).val < 10 := (i 2).isLt
  match a with
  | ⟨0, _⟩ => show win0_4.index (Fin.cast N_0.symm (i 0)) (0 : Fin 3) * 1 ≤ (i 0).val ∧ (i 0).val < win0_4.index (Fin.cast N_0.symm (i 0)) (0 : Fin 3) * 1 + 1
              rw [e0]; show (i 0).val * 1 ≤ (i 0).val ∧ (i 0).val < (i 0).val * 1 + 1; omega
  | ⟨1, _⟩ => show win0_4.index (Fin.cast N_0.symm (i 0)) (1 : Fin 3) * 8 ≤ (i 1).val ∧ (i 1).val < win0_4.index (Fin.cast N_0.symm (i 0)) (1 : Fin 3) * 8 + 8
              rw [e1]; omega
  | ⟨2, _⟩ => show win0_4.index (Fin.cast N_0.symm (i 0)) (2 : Fin 3) * 10 ≤ (i 2).val ∧ (i 2).val < win0_4.index (Fin.cast N_0.symm (i 0)) (2 : Fin 3) * 10 + 10
              rw [e2]; omega

/-! ## The two result arrays after the run -/

/-- The first result array ends as `G3`: every point writes its block of it, and the blocks fill the array. -/
theorem final3 (c : Dev nD) : (dats (F := Ideal) m 0 c).arrAt 3 cfg0.N = G3 m c :=
  (dats (F := Ideal) m 0 c).arrAt_eq_of_cover 3 (G3 m c) (fun t _ => flushed3_eq m c t) cover3

/-- The second result array ends as `G4`. -/
theorem final4 (c : Dev nD) : (dats (F := Ideal) m 0 c).arrAt 4 cfg0.N = G4 m c :=
  (dats (F := Ideal) m 0 c).arrAt_eq_of_cover 4 (G4 m c) (fun t _ => flushed4_eq m c t) cover4

end Cert.Ghm.KArrays

end
-- ==== Proof.KTail.lean ====
/-
  The kernel program's operations after its region, read back as the ten bins' post-processing.

  The region leaves two [40, 8, 10] arrays: per tile t, row 0 holds the ten bins' partial counts (first array) and
  partial sums (second array). The operations that follow take row 0 of every tile, lay it out as [40, 10] and add over
  the tiles: the counts cnt k and the sums sm k of the ten bins (`colSum`). From these: tot = max (∑ cnt) 1; n = the number
  of bins with a positive count (an integer sum of comparisons, converted); each bin weighs tot / max (cnt k) 1, or 0 when
  it is empty; the loss is (∑ₖ w k · sm k) / n / tot, the division by n skipped when n = 0 — the specification's
  `lossOfBins`. Over the extended reals the host's float sums are exact sums, so every step is an equality.
-/
import proofs.«179587_j1580547966503_2_alg».proof.Proof.Gen.KernelIdeal.Frame
import proofs.«179587_j1580547966503_2_alg».proof.Proof.Spec
import Idealize.ShloMosaic.Lib.StableHlo.Run
import Idealize.ShloMosaic.Lib.Pipeline.Value
import Idealize.ShloMosaic.PureOps.Ideal.Laws

noncomputable section

open scoped BigOperators

namespace Cert.Ghm.KTail

open Cert.KernelIdeal Cert.KernelIdeal.Gen Cert.Ghm Idealize.ShloMosaic Idealize.ShloMosaic.ValueIdx

/-- column sums over the 40 tiles of row 0 of a [40, 8, 10] array -/
def colSum (A : S40x8x10.Idx → EReal) (k : Cert.Ghm.S10.Idx) : EReal := lit0 + ∑ t : Fin 40, A (ix3 t (0 : Fin 8) (k 0))

/-- The host's reading of a [40, 8, 10] array: row 0 of every tile, laid out as [40, 10], summed over the tiles. -/
def colRed (A : S40x8x10.Idx → EReal) : Cert.KernelIdeal.S10.Idx → EReal :=
  Host.reduceAdd (F := Ideal) (φ := .f32)
    (fun i => shapeCast S40x10 (extractStridedSlice S40x1x10 ![0, 0, 0] A slices_S40x8x10_S40x1x10_0_0_0) shapeCasts_S40x1x10_S40x10 i)
    (constant (F := Ideal) Cert.KernelIdeal.S_ .f32 0x00000000#32) reducesTo_S40x10_S10_d0 h_S_

/-- That reading is the column sum: entry k adds, over the tiles t, the array at (t, 0, k). -/
theorem colRed_eq (A : S40x8x10.Idx → EReal) : colRed A = colSum A := by
  funext k
  have hR : S40x10.Reduces [0] Cert.KernelIdeal.S10 := by decide
  unfold colRed colSum
  show Ideal.hostReduceAdd reducesTo_S40x10_S10_d0 _ lit0 k = _
  rw [Ideal.hostReduceAdd_single reducesTo_S40x10_S10_d0 hR]
  show lit0 + ∑ t : Fin 40, _ = lit0 + ∑ t : Fin 40, _
  refine congrArg (lit0 + ·) (Finset.sum_congr rfl fun t _ => ?_)
  refine (shapeCast_apply _ shapeCasts_S40x1x10_S40x10 (hR.lift k t) (ix3 t (0 : Fin 1) (k 0)) ?_).trans ?_
  · rewrite [Shape.rowMajor_val_three, Shape.rowMajor_val_two]
    show (t.val * 1 + 0) * 10 + (k 0).val = t.val * 10 + (k 0).val
    omega
  · exact extractStridedSlice_apply _ A slices_S40x8x10_S40x1x10_0_0_0 (ix3 t (0 : Fin 1) (k 0)) (ix3 t (0 : Fin 8) (k 0))
      (fun a => match a with
        | ⟨0, _⟩ => by show t.val = 0 + t.val; omega
        | ⟨1, _⟩ => by show 0 = 0 + 0; omega
        | ⟨2, _⟩ => by show (k 0).val = 0 + (k 0).val; omega)

/-! ## The bins' post-processing as the host computes it, over the counts and the sums as rank-1 arrays -/

/-- The total count, at least one. -/
def totVec (cnt : Cert.KernelIdeal.S10.Idx → EReal) : Cert.KernelIdeal.S_.Idx → EReal :=
  maximumf (F := Ideal) (φ := .f32)
    (Host.reduceAdd (F := Ideal) (φ := .f32) cnt (constant (F := Ideal) Cert.KernelIdeal.S_ .f32 0x00000000#32) reducesTo_S10_S_d0 h_S_)
    (constant (F := Ideal) Cert.KernelIdeal.S_ .f32 0x3F800000#32)

/-- The number of occupied bins: the comparisons widened to 32 bits, summed as integers, converted. -/
def nVec (cnt : Cert.KernelIdeal.S10.Idx → EReal) : Cert.KernelIdeal.S_.Idx → EReal :=
  sitofp (F := Ideal) .f32 (Host.reduce IntOp.addi
    (extui 32 (cmpf (F := Ideal) (φ := .f32) .ogt cnt
      (broadcastInDim Cert.KernelIdeal.S10 ![] bcast_S_S10 (constant (F := Ideal) Cert.KernelIdeal.S_ .f32 0x00000000#32))) natLt_1_32)
    (constantI Cert.KernelIdeal.S_ 32 0#32) reducesTo_S10_S_d0 h_S_)

/-- Each bin's weight: the total over the count (at least one) where the count is positive, else zero. -/
def wVec (cnt : Cert.KernelIdeal.S10.Idx → EReal) : Cert.KernelIdeal.S10.Idx → EReal :=
  select (cmpf (F := Ideal) (φ := .f32) .ogt cnt
      (broadcastInDim Cert.KernelIdeal.S10 ![] bcast_S_S10 (constant (F := Ideal) Cert.KernelIdeal.S_ .f32 0x00000000#32)))
    (Host.divf (F := Ideal) (φ := .f32) (broadcastInDim Cert.KernelIdeal.S10 ![] bcast_S_S10 (totVec cnt))
      (maximumf (F := Ideal) (φ := .f32) cnt
        (broadcastInDim Cert.KernelIdeal.S10 ![] bcast_S_S10 (constant (F := Ideal) Cert.KernelIdeal.S_ .f32 0x3F800000#32))))
    (broadcastInDim Cert.KernelIdeal.S10 ![] bcast_S_S10 (constant (F := Ideal) Cert.KernelIdeal.S_ .f32 0x00000000#32))

/-- The weighted sum of the bins' sums. -/
def rawVec (cnt sm : Cert.KernelIdeal.S10.Idx → EReal) : Cert.KernelIdeal.S_.Idx → EReal :=
  Host.reduceAdd (F := Ideal) (φ := .f32) (mulf (F := Ideal) (φ := .f32) (wVec cnt) sm)
    (constant (F := Ideal) Cert.KernelIdeal.S_ .f32 0x00000000#32) reducesTo_S10_S_d0 h_S_

/-- The loss: the weighted sum over the number of occupied bins (where that is positive), over the total, times one. -/
def tailVec (cnt sm : Cert.KernelIdeal.S10.Idx → EReal) : Cert.KernelIdeal.S_.Idx → EReal :=
  mulf (F := Ideal) (φ := .f32)
    (Host.divf (F := Ideal) (φ := .f32)
      (select (cmpf (F := Ideal) (φ := .f32) .ogt (nVec cnt) (constant (F := Ideal) Cert.KernelIdeal.S_ .f32 0x00000000#32))
        (Host.divf (F := Ideal) (φ := .f32) (rawVec cnt sm) (nVec cnt)) (rawVec cnt sm))
      (totVec cnt))
    (constant (F := Ideal) Cert.KernelIdeal.S_ .f32 0x3F800000#32)

/-- The total at the rank-0 shape's index: the host's sum over one axis into rank 0 is the initial value plus the sum of
    all ten counts. -/
theorem totVec_apply (cnt : Cert.KernelIdeal.S10.Idx → EReal) (j : Cert.KernelIdeal.S_.Idx) :
    totVec cnt j = totOf (lit0 + ∑ k : Cert.Ghm.S10.Idx, cnt k) := by
  show max (Ideal.hostReduceAdd reducesTo_S10_S_d0 cnt lit0 j) lit1 = _
  rw [Ideal.hostReduceAdd_total reducesTo_S10_S_d0 (fun b => b.elim0)]
  rfl

/-- The number of occupied bins is the specification's, the integer reduction left as it is. -/
theorem nVec_apply (cnt : Cert.KernelIdeal.S10.Idx → EReal) (j : Cert.KernelIdeal.S_.Idx) :
    nVec cnt j = nOf reducesTo_S10_S_d0 h_S_ cnt := by
  obtain rfl : j = ix0 := eq_ix0 j
  rfl

/-- A bin's weight is the specification's: the broadcasts of the rank-0 constants and of the total read their one entry. -/
theorem wVec_apply (cnt : Cert.KernelIdeal.S10.Idx → EReal) (k : Cert.KernelIdeal.S10.Idx) :
    wVec cnt k = wOf (totOf (lit0 + ∑ k : Cert.Ghm.S10.Idx, cnt k)) cnt k := by
  show (if Ideal.cmp .ogt (cnt k) lit0 = 1 then Ideal.div (totVec cnt _) (max (cnt k) lit1) else lit0) = _
  rw [totVec_apply]
  rfl

/-- The weighted sum at the rank-0 index. -/
theorem rawVec_apply (cnt sm : Cert.KernelIdeal.S10.Idx → EReal) (j : Cert.KernelIdeal.S_.Idx) :
    rawVec cnt sm j = lit0 + ∑ k : Cert.Ghm.S10.Idx, wOf (totOf (lit0 + ∑ k : Cert.Ghm.S10.Idx, cnt k)) cnt k * sm k := by
  show Ideal.hostReduceAdd reducesTo_S10_S_d0 (fun k => wVec cnt k * sm k) lit0 j = _
  rw [Ideal.hostReduceAdd_total reducesTo_S10_S_d0 (fun b => b.elim0)]
  refine congrArg (lit0 + ·) (Finset.sum_congr rfl fun k _ => ?_)
  rw [wVec_apply]

/-- The host's post-processing is the specification's loss of the bins. -/
theorem tail_alg (cnt sm : Cert.KernelIdeal.S10.Idx → EReal) :
    tailVec cnt sm = fun _ => lossOfBins (nOf reducesTo_S10_S_d0 h_S_ cnt) cnt sm := by
  funext j
  show Ideal.div (if Ideal.cmp .ogt (nVec cnt j) lit0 = 1 then Ideal.div (rawVec cnt sm j) (nVec cnt j) else rawVec cnt sm j)
      (totVec cnt j) * lit1 = _
  rw [nVec_apply, rawVec_apply, totVec_apply]
  rfl

/-! ## The program's operations after the region -/

/-- over a VARIABLE valuation W: the value the tail leaves in main_v30 is the post-processing of the column sums of what W holds at main_v3_0 and main_v3_1 -/
theorem tail_read (W : Valuation τ sig (Elt Ideal)) :
    StableHlo.after (List.flatten [hostOps1, hostOps1_1, hostOps1_2, hostOps1_3, hostOps1_4] : List (HloOp τ sig (Elt Ideal))) W (Proc.devRef .tc main_v30)
      = fun _ => lossOfBins (nOf reducesTo_S10_S_d0 h_S_ (colSum (W (Proc.devRef .tc main_v3_0)))) (colSum (W (Proc.devRef .tc main_v3_0))) (colSum (W (Proc.devRef .tc main_v3_1))) := by
  simp only [hostOps1, hostOps1_1, hostOps1_2, hostOps1_3, hostOps1_4, List.flatten_cons, List.flatten_nil, List.append_nil, List.cons_append, List.nil_append]
  open StableHlo in after_results_simp
  simp only [StableHlo.TRef.toBuf, StableHlo.TRef.ofBuf, cast_eq, id]
  show tailVec (colRed (W (Proc.devRef .tc main_v3_0))) (colRed (W (Proc.devRef .tc main_v3_1))) = _
  rw [colRed_eq, colRed_eq]
  exact tail_alg _ _

/-- instantiated at the frame run's valuation -/
theorem tail_value (m : (ℓ : Loc nD τ sig) → Buf (Elt Ideal) ℓ) (c : Dev nD) :
    Pipeline.afterTail₀ cfgs (dats m) 0 (V0 m) [hostOps1, hostOps1_1, hostOps1_2, hostOps1_3, hostOps1_4] c main_v30
      = fun _ => lossOfBins (nOf reducesTo_S10_S_d0 h_S_ (colSum ((dats m 0 c).arrAt 3 cfg0.N))) (colSum ((dats m 0 c).arrAt 3 cfg0.N)) (colSum ((dats m 0 c).arrAt 4 cfg0.N)) := by
  unfold Pipeline.afterTail₀
  refine (tail_read _).trans ?_
  -- the region's two output arrays are the windows 3 and 4: the valuation the region leaves holds their final contents
  have h3 : Pipeline.withArrays (cfgs 0).spec c (V0 m c) (fun w => (dats m 0 c).arrAt w (cfgs 0).N) (Proc.devRef .tc main_v3_0)
      = (dats m 0 c).arrAt 3 cfg0.N :=
    Pipeline.withArrays_arr spec0 launch0.win.arr_inj c (V0 m c) (fun w => (dats m 0 c).arrAt w (cfgs 0).N) 3
  have h4 : Pipeline.withArrays (cfgs 0).spec c (V0 m c) (fun w => (dats m 0 c).arrAt w (cfgs 0).N) (Proc.devRef .tc main_v3_1)
      = (dats m 0 c).arrAt 4 cfg0.N :=
    Pipeline.withArrays_arr spec0 launch0.win.arr_inj c (V0 m c) (fun w => (dats m 0 c).arrAt w (cfgs 0).N) 4
  rw [h3, h4]

end Cert.Ghm.KTail

end
-- ==== Proof.Reindex.lean ====
/-
  Re-indexing a sum over the [262144, 80] positions as a double sum over 40 tiles of [4096, 128]: the map
  (t, j) ↦ lin t j sends the pair to the position whose linear (row-major) number is t · 524288 + (j 0) · 128 + (j 1),
  and every linear number below 40 · 524288 = 262144 · 80 arises exactly once, so the map is a bijection.
-/
import proofs.«179587_j1580547966503_2_alg».proof.Proof.Spec

noncomputable section

open scoped BigOperators

namespace Cert.Ghm.Reindex

open Idealize.ShloMosaic Idealize.ShloMosaic.ValueIdx Cert.Ghm

/-- The inverse of `lin`: from a position (a, b) take its linear number n = a · 80 + b; the tile is n / 524288, the row in the
    tile (n % 524288) / 128 and the lane n % 128. -/
def unlin (i : S262144x80.Idx) : Fin 40 × S4096x128.Idx :=
  (⟨((i 0).val * 80 + (i 1).val) / 524288, by
      have h0 := idx2_lt0 i; have h1 := idx2_lt1 i; omega⟩,
   ix2 (⟨(((i 0).val * 80 + (i 1).val) % 524288) / 128, by omega⟩ : Fin 4096)
       (⟨((i 0).val * 80 + (i 1).val) % 128, Nat.mod_lt _ (by norm_num)⟩ : Fin 128))

/-- `lin` as a bijection between (tile, position in the tile) and the positions of the [262144, 80] array. -/
def linEquiv : Fin 40 × S4096x128.Idx ≃ S262144x80.Idx where
  toFun p := lin p.1 p.2
  invFun := unlin
  left_inv := by
    rintro ⟨t, j⟩
    have h0 := idx2_lt0 j; have h1 := idx2_lt1 j; have ht := t.isLt
    have e0 : ((lin t j) 0).val = (t.val * 524288 + (j 0).val * 128 + (j 1).val) / 80 := rfl
    have e1 : ((lin t j) 1).val = (t.val * 524288 + (j 0).val * 128 + (j 1).val) % 80 := rfl
    refine Prod.ext (Fin.ext ?_) ?_
    · show (((lin t j) 0).val * 80 + ((lin t j) 1).val) / 524288 = t.val
      rw [e0, e1]; omega
    · funext a
      match a with
      | ⟨0, _⟩ =>
        refine Fin.ext ?_
        show ((((lin t j) 0).val * 80 + ((lin t j) 1).val) % 524288) / 128 = (j 0).val
        rw [e0, e1]; omega
      | ⟨1, _⟩ =>
        refine Fin.ext ?_
        show (((lin t j) 0).val * 80 + ((lin t j) 1).val) % 128 = (j 1).val
        rw [e0, e1]; omega
  right_inv := by
    intro i
    have h0 := idx2_lt0 i; have h1 := idx2_lt1 i
    funext a
    match a with
    | ⟨0, _⟩ =>
      refine Fin.ext ?_
      show (((i 0).val * 80 + (i 1).val) / 524288 * 524288 + (((i 0).val * 80 + (i 1).val) % 524288) / 128 * 128
        + ((i 0).val * 80 + (i 1).val) % 128) / 80 = (i 0).val
      omega
    | ⟨1, _⟩ =>
      refine Fin.ext ?_
      show (((i 0).val * 80 + (i 1).val) / 524288 * 524288 + (((i 0).val * 80 + (i 1).val) % 524288) / 128 * 128
        + ((i 0).val * 80 + (i 1).val) % 128) % 80 = (i 1).val
      omega

/-- A sum over all positions is the sum over the tiles of the sums over each tile's positions. -/
theorem sum_lin {M : Type} [AddCommMonoid M] (f : S262144x80.Idx → M) :
    ∑ t : Fin 40, ∑ j : S4096x128.Idx, f (lin t j) = ∑ i : S262144x80.Idx, f i :=
  (Fintype.sum_prod_type' (fun (t : Fin 40) (j : S4096x128.Idx) => f (lin t j))).symm.trans
    (Equiv.sum_comp linEquiv f)

end Cert.Ghm.Reindex

end
-- ==== Proof.KernelValue.lean ====
/-
  The kernel program's result as one function of the three argument arrays.

  The program re-lays each [262144, 80] argument as [163840, 128] and runs forty grid points; point t reads the three
  [4096, 128] tiles at rows t · 4096 …, and writes, for each bin k, the tile's count (the sum over the tile of
  [bin = k] · valid) and the tile's loss sum (the sum of [bin = k] · bce · valid) into row block t of two [40, 8, 10]
  arrays (all eight rows of a block alike). The host then adds row 0 of the forty blocks, bin by bin, and post-processes
  the ten counts and ten sums. Since the forty tiles are exactly the elements of the argument arrays, each once
  (`sum_lin`), the column sums are the sums over ALL elements: the counts `cntOf` and the sums `smOf` of the
  specification, and the result is `lossOfBins` of them.
-/
import proofs.«179587_j1580547966503_2_alg».proof.Proof.Gen.KernelIdeal.Frame
import proofs.«179587_j1580547966503_2_alg».proof.Proof.Spec
import proofs.«179587_j1580547966503_2_alg».proof.Proof.KBody
import proofs.«179587_j1580547966503_2_alg».proof.Proof.KArrays
import proofs.«179587_j1580547966503_2_alg».proof.Proof.KTail
import proofs.«179587_j1580547966503_2_alg».proof.Proof.Reindex

noncomputable section

open scoped BigOperators

namespace Cert.Ghm.KernelValue

open Cert.KernelIdeal Cert.KernelIdeal.Gen Cert.Ghm Cert.Ghm.KTail Idealize.ShloMosaic Idealize.ShloMosaic.ValueIdx Idealize.SL.Sem

/-- The two shape facts the count of non-empty bins takes (a [10] array reduces over its one axis to a scalar). -/
theorem hred : Cert.Ghm.S10.ReducesTo [0] Cert.Ghm.S_ := by decide
theorem hpos : 0 < Cert.Ghm.S_.numel := by decide

/-- The loss as a function of the prediction, target and label-weight arrays: the bins' post-processing of the counts
    and sums taken over all elements. -/
def loss (a b w : Cert.Ghm.S262144x80.Idx → EReal) : EReal :=
  lossOfBins (nOf hred hpos (cntOf (fun i => vf (w i)) (fun i => bin (a i) (b i))))
    (cntOf (fun i => vf (w i)) (fun i => bin (a i) (b i)))
    (smOf (fun i => vf (w i)) (fun i => bin (a i) (b i)) (fun i => bce (a i) (b i)))

/-- Row 0's column sums of an array whose block t holds the tile sums of tile t are the counts over all elements. -/
theorem colSum_cnt (A : S40x8x10.Idx → EReal) (b0 b1 b2 : Fin 40 → Vec Ideal Cert.KernelIdeal.S4096x128 .f32)
    (a0 a1 a2 : Cert.Ghm.S262144x80.Idx → EReal)
    (hA : ∀ (t : Fin 40) (r : Fin 8) (k : Fin 10), A (ix3 t r k) = out0_3 (F := Ideal) (b0 t) (b1 t) (b2 t) (ix3 (0 : Fin 1) r k))
    (hi0 : ∀ (t : Fin 40) (j : Cert.Ghm.S4096x128.Idx), b0 t j = a0 (lin t j))
    (hi1 : ∀ (t : Fin 40) (j : Cert.Ghm.S4096x128.Idx), b1 t j = a1 (lin t j))
    (hi2 : ∀ (t : Fin 40) (j : Cert.Ghm.S4096x128.Idx), b2 t j = a2 (lin t j)) :
    colSum A = cntOf (fun i : Cert.Ghm.S262144x80.Idx => vf (a2 i)) (fun i => bin (a0 i) (a1 i)) := by
  funext k
  obtain ⟨q, rfl⟩ : ∃ q : Fin 10, k = ix1 q := ⟨k 0, eq_ix1 k⟩
  unfold colSum cntOf
  rw [← Reindex.sum_lin]
  refine congrArg (lit0 + ·) (Finset.sum_congr rfl fun t _ => ?_)
  show A (ix3 t (0 : Fin 8) q) = _
  rw [hA t 0 q, KBody.out3_apply]
  refine Finset.sum_congr rfl fun j _ => ?_
  rw [hi0 t j, hi1 t j, hi2 t j]
  rfl

/-- The same for the loss sums. -/
theorem colSum_sm (A : S40x8x10.Idx → EReal) (b0 b1 b2 : Fin 40 → Vec Ideal Cert.KernelIdeal.S4096x128 .f32)
    (a0 a1 a2 : Cert.Ghm.S262144x80.Idx → EReal)
    (hA : ∀ (t : Fin 40) (r : Fin 8) (k : Fin 10), A (ix3 t r k) = out0_4 (F := Ideal) (b0 t) (b1 t) (b2 t) (ix3 (0 : Fin 1) r k))
    (hi0 : ∀ (t : Fin 40) (j : Cert.Ghm.S4096x128.Idx), b0 t j = a0 (lin t j))
    (hi1 : ∀ (t : Fin 40) (j : Cert.Ghm.S4096x128.Idx), b1 t j = a1 (lin t j))
    (hi2 : ∀ (t : Fin 40) (j : Cert.Ghm.S4096x128.Idx), b2 t j = a2 (lin t j)) :
    colSum A = smOf (fun i : Cert.Ghm.S262144x80.Idx => vf (a2 i)) (fun i => bin (a0 i) (a1 i)) (fun i => bce (a0 i) (a1 i)) := by
  funext k
  obtain ⟨q, rfl⟩ : ∃ q : Fin 10, k = ix1 q := ⟨k 0, eq_ix1 k⟩
  unfold colSum smOf
  rw [← Reindex.sum_lin]
  refine congrArg (lit0 + ·) (Finset.sum_congr rfl fun t _ => ?_)
  show A (ix3 t (0 : Fin 8) q) = _
  rw [hA t 0 q, KBody.out4_apply]
  refine Finset.sum_congr rfl fun j _ => ?_
  rw [hi0 t j, hi1 t j, hi2 t j]
  rfl

variable (m : (ℓ : Loc nD τ sig) → Buf (Elt Ideal) ℓ)

/-- What the host operations after the region leave in the result buffer: the loss of the argument arrays. -/
theorem tail_loss (c : Dev nD) :
    Pipeline.afterTail₀ cfgs (dats m) 0 (V0 m) [hostOps1, hostOps1_1, hostOps1_2, hostOps1_3, hostOps1_4] c main_v30
      = fun _ => loss (m ((c.tc : Thread nD τ).loc main_arg0)) (m ((c.tc : Thread nD τ).loc main_arg1))
          (m ((c.tc : Thread nD τ).loc main_arg2)) := by
  rw [KTail.tail_value, KArrays.final3, KArrays.final4]
  rw [colSum_cnt (KArrays.G3 m c) (fun t => iblk m c 0 (t.cast N_0.symm)) (fun t => iblk m c 1 (t.cast N_0.symm))
        (fun t => iblk m c 2 (t.cast N_0.symm)) _ _ _ (KArrays.G3_apply m c) (KArrays.iblk0_apply m c) (KArrays.iblk1_apply m c)
        (KArrays.iblk2_apply m c),
      colSum_sm (KArrays.G4 m c) (fun t => iblk m c 0 (t.cast N_0.symm)) (fun t => iblk m c 1 (t.cast N_0.symm))
        (fun t => iblk m c 2 (t.cast N_0.symm)) _ _ _ (KArrays.G4_apply m c) (KArrays.iblk0_apply m c) (KArrays.iblk1_apply m c)
        (KArrays.iblk2_apply m c)]
  rfl

/-- The kernel program's run with its result named: every weakly fair execution terminates with the result buffer at the
    loss of the argument arrays, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v30)
          = (fun _ => loss (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v30 (Pipeline.mem_restRefs_of main_v30 (by decide) (by decide))).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Ghm.KernelValue

end
-- ==== Proof.lean ====
/-
  The certificate of a fused single-pass kernel for the gradient-harmonised binary cross-entropy loss (ten bins, no
  momentum) against its plain reference, over three [262144, 80] arrays: predictions x, targets y, label weights w.

  Per element: valid = [w > 0]; the gradient's size g = |1 / (1 + e^(-x)) - y| falls in bin floor (10 g) clamped to
  0 … 9; the cross-entropy is bce = max x 0 + log (1 + e^(-|x|)) - x y. With cnt k the number of valid elements in bin
  k, tot = max (∑ cnt) 1, n the number of non-empty bins and w k = tot / max (cnt k) 1 (0 for an empty bin), the loss is
      (∑ over elements of bce · w (bin) · valid / n) / tot.
  The REFERENCE computes exactly that: it scatters the valid flags into the ten counts, gathers each element's weight,
  divides by n, and sums over all elements once.
  The KERNEL never forms the per-element weights: since the weight depends on the element only through its bin,
      ∑ₑ bce · w (bin e) · valid = ∑ₖ w k · S k,   S k = ∑ over the elements of bin k of bce · valid,
  so one pass over the data that yields, tile by tile, the ten counts and the ten sums S k suffices; the host adds the
  forty tiles' partial results and post-processes twenty numbers.
  At the ideal instance both are functions on the extended reals. The counts agree by regrouping sums (a commutative
  monoid suffices). The displayed identity moves a factor across a sum, which fails at infinities, so it is proved over
  the reals: under the precondition every input is finite, hence every bce is a real number, the counts are finite
  sums of zeros and ones, tot ≥ 1 and n is an integer, and the identity is distributivity and an exchange of two finite
  sums (`Algebra.lossOfElems_eq_lossOfBins`).
  The frames of the two kernel programs are the generated ones; the reference's frame is its run with the result
  dropped; nothing was rewritten by the idealisation, so it preserves the kernel trivially.
-/
import proofs.«179587_j1580547966503_2_alg».proof.Defs
import proofs.«179587_j1580547966503_2_alg».proof.Proof.Gen.Kernel
import proofs.«179587_j1580547966503_2_alg».proof.Proof.Gen.Kernel.Skeleton
import proofs.«179587_j1580547966503_2_alg».proof.Proof.Gen.Kernel.Launch
import proofs.«179587_j1580547966503_2_alg».proof.Proof.Gen.Kernel.Points
import proofs.«179587_j1580547966503_2_alg».proof.Proof.Gen.Kernel.Frame
import proofs.«179587_j1580547966503_2_alg».proof.Proof.Gen.KernelIdeal
import proofs.«179587_j1580547966503_2_alg».proof.Proof.Gen.KernelIdeal.Skeleton
import proofs.«179587_j1580547966503_2_alg».proof.Proof.Gen.KernelIdeal.Launch
import proofs.«179587_j1580547966503_2_alg».proof.Proof.Gen.KernelIdeal.Points
import proofs.«179587_j1580547966503_2_alg».proof.Proof.Gen.KernelIdeal.Frame
import proofs.«179587_j1580547966503_2_alg».proof.Proof.Gen.ReferenceIdeal
import proofs.«179587_j1580547966503_2_alg».proof.Proof.Gen.Pre_finite_inputs
import proofs.«179587_j1580547966503_2_alg».proof.Proof.RefRead
import proofs.«179587_j1580547966503_2_alg».proof.Proof.Spec
import proofs.«179587_j1580547966503_2_alg».proof.Proof.ElemFacts
import proofs.«179587_j1580547966503_2_alg».proof.Proof.Finite
import proofs.«179587_j1580547966503_2_alg».proof.Proof.Algebra
import proofs.«179587_j1580547966503_2_alg».proof.Proof.RefValue
import proofs.«179587_j1580547966503_2_alg».proof.Proof.KernelValue
import Idealize.ShloMosaic.Adequacy
import Idealize.ShloMosaic.Init

noncomputable section

namespace Cert.Proof

open Idealize.ShloMosaic Idealize.ShloMosaic.ValueIdx Idealize.SL.Sem Cert.Ghm Cert.Ghm.KernelValue

/-- The reference's result term is the loss, for argument arrays whose predictions and targets are real numbers: read
    operation by operation it is the element-by-element formula (`RefValue.ref_value`), which equals the bins' formula
    because every validity flag is 0 or 1, every bin lies in 0 … 9 and every cross-entropy is a real number. -/
theorem ref_loss (a b w : Cert.Ghm.S262144x80.Idx → EReal)
    (ha : ∀ i, ∃ r : ℝ, a i = (r : EReal)) (hb : ∀ i, ∃ r : ℝ, b i = (r : EReal)) :
    Cert.ReferenceIdeal.ReadP.val_main_v53 (F := Ideal) a b w = fun _ => loss a b w := by
  funext i
  rw [eq_ix0 i, RefValue.ref_value a b w]
  exact Algebra.lossOfElems_eq_lossOfBins _ _ _ _ _ (fun i => ElemFacts.vf_cases _) (fun i => ElemFacts.bin_range _ _)
    (fun i => by obtain ⟨x, hx⟩ := ha i; obtain ⟨y, hy⟩ := hb i; rw [hx, hy]; exact ElemFacts.bce_real x y)

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end at the loss of the (agreeing, finite) argument arrays. -/
theorem algebraic : Cert.algebraic_KernelIdeal_ReferenceIdeal := by
  intro m ρ m' ρ' hpre hagree
  refine ⟨_, KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, _⟩ := Finite.real_of_fn _ _ _ (hpre c)
  rw [Cert.ReferenceIdeal.ReadP.val_main_v53_eq, (hagree c).1, (hagree c).2.1, (hagree c).2.2]
  exact ref_loss _ _ _ h0 h1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
